-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x16 : Shape := ⟨2, ![16, 16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg5 : FVec F S16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x16 .f32) (main_arg5 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x16 : Shape := ⟨2, ![16, 16]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x512 : Shape := ⟨2, ![2000, 512]⟩
abbrev S2000x16 : Shape := ⟨2, ![2000, 16]⟩
abbrev S3300000x16 : Shape := ⟨2, ![3300000, 16]⟩
abbrev S1x16 : Shape := ⟨2, ![1, 16]⟩
abbrev S2000 : Shape := ⟨1, ![2000]⟩
abbrev S2000x1 : Shape := ⟨2, ![2000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x16, .f32⟩
  | .hbm, ⟨75, _⟩ => ⟨S3300000x1, .f32⟩
  | .hbm, ⟨76, _⟩ => ⟨S3300000x16, .f32⟩
  | .hbm, ⟨77, _⟩ => ⟨S3300000x16, .f32⟩
  | .hbm, ⟨78, _⟩ => ⟨S_, .f32⟩
  | .hbm, ⟨79, _⟩ => ⟨S100000x16, .f32⟩
  | .hbm, ⟨80, _⟩ => ⟨S3300000x1, .i32⟩
  | .hbm, ⟨81, _⟩ => ⟨S100000x16, .f32⟩
  | .hbm, ⟨82, _⟩ => ⟨S1x16, .f32⟩
  | .hbm, ⟨83, _⟩ => ⟨S100000x16, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S1x16, .f32⟩
  | .local _ .vmem, ⟨8, _⟩ => ⟨S2000x16, .f32⟩
  | .local _ .vmem, ⟨9, _⟩ => ⟨S2000x16, .f32⟩
  | .local _ .vmem, ⟨10, _⟩ => ⟨S2000x16, .f32⟩
  | .local _ .vmem, ⟨11, _⟩ => ⟨S2000x16, .f32⟩
  | .local _ .vmem, ⟨12, _⟩ => ⟨S16x16, .f32⟩
  | .local _ .vmem, ⟨13, _⟩ => ⟨S2000x16, .f32⟩
  | .local _ .vmem, ⟨14, _⟩ => ⟨S2000x16, .f32⟩
  | .local _ .vmem, ⟨15, _⟩ => ⟨S2000x16, .f32⟩
  | .local _ .vmem, ⟨16, _⟩ => ⟨S2000x16, .f32⟩
  | .local _ .vmem, ⟨17, _⟩ => ⟨S1x16, .f32⟩
  | .local _ .vmem, ⟨18, _⟩ => ⟨S2000x16, .f32⟩
  | .local _ .vmem, ⟨19, _⟩ => ⟨S2000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x16_S16x16_0_0 : ∀ a, (![0, 0] : Fin 2 → Nat) a + S16x16.size a ≤ S16x16.size a
  h_S16x16 : 0 < S16x16.numel
  reduces_S2000x16_S2000 : S2000x16.Reduces [1] S2000
  shapeCasts_S2000_S2000x1 : S2000.ShapeCasts S2000x1
  broadcasts_S2000x1_S2000x16 : S2000x1.Broadcasts S2000x16
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x512_S512x16_S2000x16_1_0_0_1_n_n_wf : DotDims.WF S2000x512 S512x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x16_S2000x16_1_0_0_1_n_n_wf : DotDims.WF S2000x16 S16x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x16.size a ≤ S100000x16.size a
  hwx1_2 : ∀ i : grid1.Coords, EltTy.bits .f32 = 32 ∨ (Rect.block (s := S100000x16) S2000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x16.size a ≤ S100000x16.size a
  hwx2_2 : ∀ i : grid2.Coords, EltTy.bits .f32 = 32 ∨ (Rect.block (s := S100000x16) S2000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x16.size a ≤ S100000x16.size a
  hwx3_0 : ∀ i : grid3.Coords, EltTy.bits .f32 = 32 ∨ (Rect.block (s := S100000x16) S2000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x16.size a ≤ S100000x16.size a
  hwx3_2 : ∀ i : grid3.Coords, EltTy.bits .f32 = 32 ∨ (Rect.block (s := S100000x16) S2000x16.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x16_S2000x16_1_0_0_1_n_n : DotDims S2000x16 S16x16 S2000x16 where
  lhsContracting := [1]
  rhsContracting := [0]
  lhsNonContracting := [0]
  rhsNonContracting := [1]
  lhsBatch := []
  rhsBatch := []
  wf := dot_S2000x16_S16x16_S2000x16_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x16 : Shape := ⟨2, ![16, 16]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x1 : Shape := ⟨2, ![100000, 1]⟩

abbrev nBuf : Space → Nat
  | .hbm => 140
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x16, .f32⟩
  | 5 => ⟨S16, .f32⟩
  | 6 => ⟨S1x3200000, .i32⟩
  | 7 => ⟨S3200000, .i32⟩
  | 8 => ⟨S1x3200000, .i32⟩
  | 9 => ⟨S3200000, .i32⟩
  | 10 => ⟨S100000, .i32⟩
  | 11 => ⟨S3300000, .i32⟩
  | 12 => ⟨S3300000, .i32⟩
  | 13 => ⟨S_, .f32⟩
  | 14 => ⟨S3300000, .f32⟩
  | 15 => ⟨S_, .f32⟩
  | 16 => ⟨S100000, .f32⟩
  | 17 => ⟨S3300000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S3300000, .i32⟩
  | 29 => ⟨S3300000, .i1⟩
  | 30 => ⟨S_, .i32⟩
  | 31 => ⟨S3300000, .i32⟩
  | 32 => ⟨S3300000, .i32⟩
  | 33 => ⟨S3300000, .i32⟩
  | 34 => ⟨S3300000x1, .i32⟩
  | 35 => ⟨S3300000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S3300000, .f32⟩
  | 46 => ⟨S100000x16, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000, .i32⟩
  | 70 => ⟨S3300000, .i32⟩
  | 71 => ⟨S3300000, .i32⟩
  | 72 => ⟨S_, .f32⟩
  | 73 => ⟨S3300000, .f32⟩
  | 74 => ⟨S_, .f32⟩
  | 75 => ⟨S100000, .f32⟩
  | 76 => ⟨S3300000x1, .i32⟩
  | 77 => ⟨S100000, .f32⟩
  | 78 => ⟨S_, .f32⟩
  | 79 => ⟨S100000, .f32⟩
  | 80 => ⟨S100000, .i1⟩
  | 81 => ⟨S100000, .f32⟩
  | 82 => ⟨S_, .f32⟩
  | 83 => ⟨S_, .f32⟩
  | 84 => ⟨S100000, .f32⟩
  | 85 => ⟨S100000, .f32⟩
  | 86 => ⟨S_, .i32⟩
  | 87 => ⟨S3300000, .i32⟩
  | 88 => ⟨S3300000, .i1⟩
  | 89 => ⟨S_, .i32⟩
  | 90 => ⟨S3300000, .i32⟩
  | 91 => ⟨S3300000, .i32⟩
  | 92 => ⟨S3300000, .i32⟩
  | 93 => ⟨S3300000x1, .i32⟩
  | 94 => ⟨S3300000, .f32⟩
  | 95 => ⟨S_, .i32⟩
  | 96 => ⟨S3300000, .i32⟩
  | 97 => ⟨S3300000, .i1⟩
  | 98 => ⟨S_, .i32⟩
  | 99 => ⟨S3300000, .i32⟩
  | 100 => ⟨S3300000, .i32⟩
  | 101 => ⟨S3300000, .i32⟩
  | 102 => ⟨S3300000x1, .i32⟩
  | 103 => ⟨S3300000, .f32⟩
  | 104 => ⟨S3300000, .f32⟩
  | 105 => ⟨S100000x16, .f32⟩
  | 106 => ⟨S_, .i32⟩
  | 107 => ⟨S3300000, .i32⟩
  | 108 => ⟨S3300000, .i1⟩
  | 109 => ⟨S_, .i32⟩
  | 110 => ⟨S3300000, .i32⟩
  | 111 => ⟨S3300000, .i32⟩
  | 112 => ⟨S3300000, .i32⟩
  | 113 => ⟨S3300000x1, .i32⟩
  | 114 => ⟨S3300000x16, .f32⟩
  | 115 => ⟨S3300000x1, .f32⟩
  | 116 => ⟨S3300000x16, .f32⟩
  | 117 => ⟨S3300000x16, .f32⟩
  | 118 => ⟨S_, .f32⟩
  | 119 => ⟨S100000x16, .f32⟩
  | 120 => ⟨S3300000x1, .i32⟩
  | 121 => ⟨S100000x16, .f32⟩
  | 122 => ⟨S1x16, .f32⟩
  | 123 => ⟨S100000x16, .f32⟩
  | 124 => ⟨S100000x16, .f32⟩
  | 125 => ⟨S_, .f32⟩
  | 126 => ⟨S100000, .f32⟩
  | 127 => ⟨S_, .f32⟩
  | _ => ⟨S100000x512, .f32⟩

abbrev hbmTy0_1 (i : Nat) : BufTy := match i % 128 with
  | 0 => ⟨S100000, .f32⟩
  | 1 => ⟨S100000, .f32⟩
  | 2 => ⟨S100000x1, .f32⟩
  | 3 => ⟨S100000x16, .f32⟩
  | 4 => ⟨S100000x16, .f32⟩
  | 5 => ⟨S100000x16, .f32⟩
  | 6 => ⟨S_, .f32⟩
  | 7 => ⟨S100000, .f32⟩
  | 8 => ⟨S100000x1, .f32⟩
  | 9 => ⟨S100000x1, .f32⟩
  | 10 => ⟨S100000x16, .f32⟩
  | 11 => ⟨S100000x16, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf

class Facts : Prop extends Facts₀ where

variable [Facts]
-- ==== Proof.KernelRun.lean ====
/-
  The idealized kernel program's run with its result array named.

  The program is four kernel launches among stretches of host operations. Its generated frame certificate states
  the buffer contents at every boundary between these segments as a fold from the launch memory, ending at `W9`,
  and proves that every execution terminates with every unscoped buffer at `W9`. Here the same launch is read at
  one more buffer than the argument arrays: the result array ends at `W9` of its reference.
-/
import proofs.«109896_j62998580298292_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, the result array at the last boundary's contents and the arguments as
    launched. -/
theorem run : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunValue

end
-- ==== Proof.Spec.lean ====
/-
  The layers of the network as functions of arrays of extended reals, index by index.

  Three shapes of layer are computed blockwise by kernels: a matrix product, a bias followed by the rectifier, and a
  bias followed by a row-wise log-softmax. Each is stated here over arbitrary extents, with no program in sight:
  entry (p, q) of the product is the sum over k of x (p, k) · w (k, q); the rectifier layer is max (a + b, 0) entry
  by entry, the bias indexed by the column; the log-softmax of z = a + b subtracts from z (p, q) the row's maximum
  M p and then the logarithm of Σ_k exp (z (p, k) − M p). Every entry of a result depends on one row of the first
  operand only, which is what lets a kernel compute it from a block of rows.
-/
import Idealize.ShloMosaic.PureOps.Ideal
import Idealize.ShloMosaic.Lib.ValueIdx

noncomputable section

open scoped BigOperators

namespace Cert.Spec

open Idealize.ShloMosaic Idealize.ShloMosaic.ValueIdx

/-- An a-by-b matrix of extended reals. -/
abbrev Mat (a b : ℕ) := (⟨2, ![a, b]⟩ : Shape).Idx → EReal
/-- A vector of extended reals. -/
abbrev Vc (a : ℕ) := (⟨1, ![a]⟩ : Shape).Idx → EReal

variable {M K N : ℕ}

/-- The matrix product. -/
def mm (x : Mat M K) (w : Mat K N) : Mat M N := fun i => ∑ k : Fin K, x (ix2 (i 0) k) * w (ix2 k (i 1))

/-- A bias added to every row. -/
def addRow (a : Mat M N) (b : Vc N) : Mat M N := fun i => a i + b (ix1 (i 1))

/-- The bias, then the maximum with the value of the zero word. -/
def biasRelu (a : Mat M N) (b : Vc N) : Mat M N := fun i => max (addRow a b i) (Ideal.ofBits .f32 0x00000000#32)

/-- A row's maximum, from the value of the word of −∞. -/
def rowMax (z : Mat M N) (p : Fin M) : EReal :=
  (Finset.univ : Finset (Fin N)).fold max (Ideal.ofBits .f32 0xFF800000#32) (fun k => z (ix2 p k))

/-- An entry less its row's maximum. -/
def shifted (z : Mat M N) : Mat M N := fun i => z i - rowMax z (i 0)

/-- The row-wise log-softmax. -/
def logSoftmax (z : Mat M N) : Mat M N := fun i =>
  shifted z i - Ideal.log (∑ k : Fin N, Ideal.exp (shifted z (ix2 (i 0) k)))

/-- The bias, then the row-wise log-softmax. -/
def biasLogSoftmax (a : Mat M N) (b : Vc N) : Mat M N := logSoftmax (addRow a b)

/-- At (p, q) the bias layer reads row p of the matrix and entry q of the bias. -/
theorem addRow_apply (a : Mat M N) (b : Vc N) (p : Fin M) (q : Fin N) : addRow a b (ix2 p q) = a (ix2 p q) + b (ix1 q) := rfl

/-- The rectifier layer at (p, q) depends on the matrix's entry (p, q) and the bias's entry q only. -/
theorem biasRelu_congr {M' : ℕ} (a : Mat M N) (a' : Mat M' N) (b b' : Vc N) (p : Fin M) (p' : Fin M') (q : Fin N)
    (ha : a (ix2 p q) = a' (ix2 p' q)) (hb : b (ix1 q) = b' (ix1 q)) :
    biasRelu a b (ix2 p q) = biasRelu a' b' (ix2 p' q) := by
  unfold biasRelu
  rw [addRow_apply, addRow_apply, ha, hb]

/-- The log-softmax layer at (p, q) depends on row p of the matrix and on the bias only: two matrices, of any numbers
    of rows, that agree on a row give the same row of results. -/
theorem biasLogSoftmax_congr {M' : ℕ} (a : Mat M N) (a' : Mat M' N) (b b' : Vc N) (p : Fin M) (p' : Fin M') (q : Fin N)
    (ha : ∀ k : Fin N, a (ix2 p k) = a' (ix2 p' k)) (hb : ∀ k : Fin N, b (ix1 k) = b' (ix1 k)) :
    biasLogSoftmax a b (ix2 p q) = biasLogSoftmax a' b' (ix2 p' q) := by
  have hz : ∀ k : Fin N, addRow a b (ix2 p k) = addRow a' b' (ix2 p' k) := fun k => by
    rw [addRow_apply, addRow_apply, ha k, hb k]
  have hm : rowMax (addRow a b) p = rowMax (addRow a' b') p' := by
    unfold rowMax
    exact congrArg (fun f => Finset.fold max (Ideal.ofBits .f32 0xFF800000#32) f (Finset.univ : Finset (Fin N))) (funext hz)
  have hs : ∀ k : Fin N, shifted (addRow a b) (ix2 p k) = shifted (addRow a' b') (ix2 p' k) := fun k => by
    show addRow a b (ix2 p k) - rowMax (addRow a b) p = addRow a' b' (ix2 p' k) - rowMax (addRow a' b') p'
    rw [hz k, hm]
  show shifted (addRow a b) (ix2 p q) - Ideal.log (∑ k : Fin N, Ideal.exp (shifted (addRow a b) (ix2 p k)))
    = shifted (addRow a' b') (ix2 p' q) - Ideal.log (∑ k : Fin N, Ideal.exp (shifted (addRow a' b') (ix2 p' k)))
  rw [hs q]
  exact congrArg (fun s => shifted (addRow a' b') (ix2 p' q) - Ideal.log s) (Finset.sum_congr rfl fun k _ => by rw [hs k])

end Cert.Spec

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.Region0.lean ====
/-
  The first launch: the dense layer x · w1, 2000 rows at a time.

  The launch walks 50 blocks of 2000 rows. At block t the body multiplies rows 2000·t … 2000·t + 1999 of the left
  array (the whole of the right array is its second operand) into a zero accumulator and stores the 2000-by-16
  product, which is written back as rows 2000·t … of the result. Entry (r, q) of that block is
  Σ_k left (2000·t + r, k) · right (k, q): the product's entry at the row the block's row r is of the whole array.
  The 50 blocks tile the 100000 rows, so the array the launch leaves is the product of the two arrays it found.
-/
import proofs.«109896_j62998580298292_1_alg».proof.Proof.Gen.KernelIdeal.Frame
import proofs.«109896_j62998580298292_1_alg».proof.Proof.Spec
import proofs.«109896_j62998580298292_1_alg».proof.Proof.LibMatmulPlain
import Idealize.ShloMosaic.Lib.Pipeline.Value

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at (r, q): row r of the left block against column q of the right block. -/
theorem pay (x0 : Vec Ideal S2000x512 .f32) (x1 : Vec Ideal S512x16 .f32) (j : S2000x16.Idx) :
    k0_pay1 (F := Ideal) x0 x1 j = ∑ k : Fin 512, x0 (ix2 (j 0) k) * x1 (ix2 k (j 1)) :=
  MatmulPlain.matmul_zero_apply (M := 2000) (K := 512) (N := 16) none x0 x1 j

/-- The block indices over the grid: the left and the result blocks are block t of the rows, the right block is the
    whole array. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What point t writes back is block t of the product of the arrays the launch found. -/
theorem flushed (c : Dev nD) (t : Fin cfg0.N) :
    (dat0 V c).flushed 2 t
      = ((cfg0.win 2).blk t).view.read (Elt Ideal) (Spec.mm (M := 100000) (K := 512) (N := 16) (V c main_arg0) (V c main_arg2)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x16) hz]
  obtain ⟨e0, e1, e2, e3, e4, e5⟩ := idx_facts t
  funext j
  show k0_pay1 (iblk0 V c 0 t) (iblk0 V c 1 t) j
    = Spec.mm (M := 100000) (K := 512) (N := 16) (V c main_arg0) (V c main_arg2) (((cfg0.win 2).blk t).view.emb j)
  refine (pay (iblk0 V c 0 t) (iblk0 V c 1 t) j).trans ?_
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ =>
      show win0_0.index t (0 : Fin 2) * 2000 + 1 * (j 0).val = win0_2.index t (0 : Fin 2) * 2000 + 1 * (j 0).val
      omega
    | ⟨1, _⟩ =>
      show win0_0.index t (1 : Fin 2) * 512 + 1 * k.val = k.val
      omega
  have h1 : ((cfg0.win 1).blk t).view.emb (ix2 k (j 1)) = ix2 k ((((cfg0.win 2).blk t).view.emb j) 1) := by
    funext a; apply Fin.ext
    match a with
    | ⟨0, _⟩ =>
      show win0_1.index t (0 : Fin 2) * 512 + 1 * k.val = k.val
      omega
    | ⟨1, _⟩ =>
      show win0_1.index t (1 : Fin 2) * 16 + 1 * (j 1).val = win0_2.index t (1 : Fin 2) * 16 + 1 * (j 1).val
      omega
  exact congrArg₂ (fun a b : EReal => a * b) (congrArg (V c main_arg0) h0) (congrArg (V c main_arg2) h1)

/-- An index of the result array is in point t's block iff each coordinate is in the block's range on its axis. -/
theorem mem_blk (t : Fin cfg0.N) (i : S100000x16.Idx) :
    i ∈ ((cfg0.win 2).blk t).view.set ↔ ∀ a : Fin 2, win0_2.index t a * S2000x16.size a ≤ (i a).val
      ∧ (i a).val < win0_2.index t a * S2000x16.size a + S2000x16.size a := by
  show i ∈ ((View.whole main_v30).slice (win0_2.rect t)).set ↔ _
  rw [View.set_slice_whole, Rect.mem_set_unit]
  exact Iff.rfl

/-- Row p of the result is in the block of point p / 2000. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hlt : (i 0).val / 2000 < cfg0.N := by
    show (i 0).val / 2000 < grid0.N
    rw [N_0]; omega
  obtain ⟨e0, e1, e2, e3, e4, e5⟩ := idx_facts ⟨(i 0).val / 2000, hlt⟩
  have e5' : win0_2.index ⟨(i 0).val / 2000, hlt⟩ (0 : Fin 2) = (i 0).val / 2000 := e5
  refine ⟨⟨(i 0).val / 2000, hlt⟩, flush0_2 _, ?_⟩
  rw [mem_blk]
  intro a
  match a with
  | ⟨0, _⟩ =>
    show win0_2.index ⟨(i 0).val / 2000, hlt⟩ (0 : Fin 2) * 2000 ≤ (i 0).val
      ∧ (i 0).val < win0_2.index ⟨(i 0).val / 2000, hlt⟩ (0 : Fin 2) * 2000 + 2000
    omega
  | ⟨1, _⟩ =>
    show win0_2.index ⟨(i 0).val / 2000, hlt⟩ (1 : Fin 2) * 16 ≤ (i 1).val
      ∧ (i 1).val < win0_2.index ⟨(i 0).val / 2000, hlt⟩ (1 : Fin 2) * 16 + 16
    omega

/-- The array the launch leaves is the product of the two arrays it found. -/
theorem final (c : Dev nD) :
    (dat0 V c).arrAt 2 cfg0.N = Spec.mm (M := 100000) (K := 512) (N := 16) (V c main_arg0) (V c main_arg2) :=
  (dat0 V c).arrAt_eq_of_cover 2 _ (fun t _ => flushed V c t) cover

end Cert.KernelIdeal.Region0

end
-- ==== Proof.LibRowReduce.lean ====
/-
  A matrix reduced along one axis, read at an index, at the ideal values.

  For an `[a, b]` matrix `src`: the reduction by `max` along the columns (axis 1) is, at row `i`, the fold of `max`
  from the accumulator's value over `src (i, k)`, `k < b`; the reduction by `+` along the columns is, at row `i`,
  `Σ_k src (i, k)`; and the reduction by `+` along the rows (axis 0) is, at column `j`, `Σ_i src (i, j)`. Arbitrary
  extents and any float format. (The library states these over the reduced shape's own index `h.lift j k`; here the
  index is spelt by its two coordinates.)
-/
import Idealize.ShloMosaic.PureOps.Ideal.Laws
import Idealize.ShloMosaic.Lib.ValueIdx

noncomputable section

namespace Idealize.ShloMosaic.RowReduce

open Idealize.ShloMosaic Idealize.ShloMosaic.ValueIdx

variable {a b : ℕ} {φ : FTy}

/-- The row maxima: at row `i`, the fold of `max` over the row's entries from the accumulator's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (Finset.fold max (Ideal.ofBits φ acc) · (Finset.univ : Finset (Fin b))) (funext fun k => ?_)
  exact congrArg src (funext fun c => Fin.ext (by match c with | ⟨0, _⟩ => rfl | ⟨1, _⟩ => rfl))

/-- The row sums: at row `i`, the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => ?_
  exact congrArg src (funext fun c => Fin.ext (by match c with | ⟨0, _⟩ => rfl | ⟨1, _⟩ => rfl))

/-- The column sums: at column `j`, the sum of the column's entries. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun c => Fin.ext (by match c with | ⟨0, _⟩ => rfl | ⟨1, _⟩ => rfl))

end Idealize.ShloMosaic.RowReduce

end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.Region1.lean ====
/-
  The second launch: the bias and the rectifier, 2000 rows at a time.

  The launch walks 50 blocks of 2000 rows; at block t the body reads rows 2000·t … 2000·t + 1999 of the feature array
  and the whole one-row bias array, and stores a 2000-by-16 block that is written back as the same rows of the result.
  Every entry of the block is a function of its own row of the features and of the bias, the same function for a
  block as for the whole array, so block t of the result is block t of that function of the whole arrays; the 50
  blocks tile the 100000 rows.
-/
import proofs.«109896_j62998580298292_1_alg».proof.Proof.Gen.KernelIdeal.Frame
import proofs.«109896_j62998580298292_1_alg».proof.Proof.Spec
import proofs.«109896_j62998580298292_1_alg».proof.Proof.LibRowReduce
import proofs.«109896_j62998580298292_1_alg».proof.Proof.LibKeepdims
import Idealize.ShloMosaic.Lib.Pipeline.Value
import Idealize.ShloMosaic.Lib.ValueLayout

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- A one-row array read as a vector. -/
abbrev rowOf (x : (⟨2, ![1, 16]⟩ : Shape).Idx → EReal) : Spec.Vc 16 := fun i => x (ix2 (0 : Fin 1) (i 0))

/-- The body's stored block is the rectifier layer of the feature block and the bias row. -/
theorem pay (x0 : Vec Ideal S2000x16 .f32) (x1 : Vec Ideal S1x16 .f32) :
    k1_pay1 (F := Ideal) x0 x1 = Spec.biasRelu (M := 2000) (N := 16) x0 (rowOf x1) := by
  unfold k1_pay1
  funext j
  obtain ⟨p, q, rfl⟩ : ∃ (p : Fin 2000) (q : Fin 16), j = ix2 p q := ⟨j 0, j 1, eq_ix2 j⟩
  show max ((shapeCast S2000x16 x0 shapeCasts_S2000x16_S2000x16) (ix2 p q)
      + (broadcastTo S2000x16 (shapeCast S1x16 x1 shapeCasts_S1x16_S1x16) broadcasts_S1x16_S2000x16) (ix2 p q))
      (Ideal.ofBits .f32 0x00000000#32) = max (x0 (ix2 p q) + x1 (ix2 (0 : Fin 1) q)) (Ideal.ofBits .f32 0x00000000#32)
  rw [shapeCast_self, shapeCast_self, broadcastTo_1b_ab_apply]

/-- The block indices over the grid: the feature and the result blocks are block t of the rows, the bias block is the
    whole one-row array. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) = t.val :=
  (by decide +kernel : ∀ t : Fin grid1.N, _)

/-- What point t writes back is block t of the layer of the arrays the launch found. -/
theorem flushed (c : Dev nD) (t : Fin cfg1.N) :
    (dat1 V c).flushed 2 t
      = ((cfg1.win 2).blk t).view.read (Elt Ideal) (Spec.biasRelu (M := 100000) (N := 16) (V c main_v43) (rowOf (V c main_v44))) := by
  show (cfg1.win 2).cut (grid1.coords t) ((dat1 V c).after 2 t) = _
  rw [after1_2]
  unfold out1_2
  rw [View.canon_unit_zero hz]
  simp only [View.ld_unit_zero (S := S2000x16) hz, View.ld_unit_zero (S := S1x16) hz]
  obtain ⟨e0, e1, e2, e3, e4, e5⟩ := idx_facts t
  funext j
  obtain ⟨p, q, rfl⟩ : ∃ (p : Fin 2000) (q : Fin 16), j = ix2 p q := ⟨j 0, j 1, eq_ix2 j⟩
  show k1_pay1 (iblk1 V c 0 t) (iblk1 V c 1 t) (ix2 p q)
    = Spec.biasRelu (M := 100000) (N := 16) (V c main_v43) (rowOf (V c main_v44)) (((cfg1.win 2).blk t).view.emb (ix2 p q))
  rw [pay (iblk1 V c 0 t) (iblk1 V c 1 t)]
  have hout : ((cfg1.win 2).blk t).view.emb (ix2 p q) = ix2 ((((cfg1.win 2).blk t).view.emb (ix2 p q)) 0) q := by
    funext a; apply Fin.ext
    match a with
    | ⟨0, _⟩ => rfl
    | ⟨1, _⟩ =>
      show win1_2.index t (1 : Fin 2) * 16 + 1 * q.val = q.val
      omega
  rw [hout]
  have h0 : ∀ k : Fin 16, ((cfg1.win 0).blk t).view.emb (ix2 p k) = ix2 ((((cfg1.win 2).blk t).view.emb (ix2 p q)) 0) k := fun k => by
    funext a; apply Fin.ext
    match a with
    | ⟨0, _⟩ =>
      show win1_0.index t (0 : Fin 2) * 2000 + 1 * p.val = win1_2.index t (0 : Fin 2) * 2000 + 1 * p.val
      omega
    | ⟨1, _⟩ =>
      show win1_0.index t (1 : Fin 2) * 16 + 1 * k.val = k.val
      omega
  have h1 : ∀ k : Fin 16, ((cfg1.win 1).blk t).view.emb (ix2 (0 : Fin 1) k) = ix2 (0 : Fin 1) k := fun k => by
    funext a; apply Fin.ext
    match a with
    | ⟨0, _⟩ =>
      show win1_1.index t (0 : Fin 2) * 1 + 1 * 0 = 0
      omega
    | ⟨1, _⟩ =>
      show win1_1.index t (1 : Fin 2) * 16 + 1 * k.val = k.val
      omega
  refine Spec.biasRelu_congr (iblk1 V c 0 t) (V c main_v43) (rowOf (iblk1 V c 1 t)) (rowOf (V c main_v44)) p _ q (congrArg (V c main_v43) (h0 q)) (congrArg (V c main_v44) (h1 q))

/-- An index of the result array is in point t's block iff each coordinate is in the block's range on its axis. -/
theorem mem_blk (t : Fin cfg1.N) (i : S100000x16.Idx) :
    i ∈ ((cfg1.win 2).blk t).view.set ↔ ∀ a : Fin 2, win1_2.index t a * S2000x16.size a ≤ (i a).val
      ∧ (i a).val < win1_2.index t a * S2000x16.size a + S2000x16.size a := by
  show i ∈ ((View.whole main_v45).slice (win1_2.rect t)).set ↔ _
  rw [View.set_slice_whole, Rect.mem_set_unit]
  exact Iff.rfl

/-- Row p of the result is in the block of point p / 2000. -/
theorem cover (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have hlt : (i 0).val / 2000 < cfg1.N := by
    show (i 0).val / 2000 < grid1.N
    rw [N_1]; omega
  obtain ⟨e0, e1, e2, e3, e4, e5⟩ := idx_facts ⟨(i 0).val / 2000, hlt⟩
  have e5' : win1_2.index ⟨(i 0).val / 2000, hlt⟩ (0 : Fin 2) = (i 0).val / 2000 := e5
  refine ⟨⟨(i 0).val / 2000, hlt⟩, flush1_2 _, ?_⟩
  rw [mem_blk]
  intro a
  match a with
  | ⟨0, _⟩ =>
    show win1_2.index ⟨(i 0).val / 2000, hlt⟩ (0 : Fin 2) * 2000 ≤ (i 0).val
      ∧ (i 0).val < win1_2.index ⟨(i 0).val / 2000, hlt⟩ (0 : Fin 2) * 2000 + 2000
    omega
  | ⟨1, _⟩ =>
    show win1_2.index ⟨(i 0).val / 2000, hlt⟩ (1 : Fin 2) * 16 ≤ (i 1).val
      ∧ (i 1).val < win1_2.index ⟨(i 0).val / 2000, hlt⟩ (1 : Fin 2) * 16 + 16
    omega

/-- The array the launch leaves is the layer of the two arrays it found. -/
theorem final (c : Dev nD) :
    (dat1 V c).arrAt 2 cfg1.N = Spec.biasRelu (M := 100000) (N := 16) (V c main_v43) (rowOf (V c main_v44)) :=
  (dat1 V c).arrAt_eq_of_cover 2 _ (fun t _ => flushed V c t) cover

end Cert.KernelIdeal.Region1

end
-- ==== Proof.Region2.lean ====
/-
  The third launch: the dense layer h · w2, 2000 rows at a time.

  The launch walks 50 blocks of 2000 rows. At block t the body multiplies rows 2000·t … 2000·t + 1999 of the left
  array (the whole of the right array is its second operand) into a zero accumulator and stores the 2000-by-16
  product, which is written back as rows 2000·t … of the result. Entry (r, q) of that block is
  Σ_k left (2000·t + r, k) · right (k, q): the product's entry at the row the block's row r is of the whole array.
  The 50 blocks tile the 100000 rows, so the array the launch leaves is the product of the two arrays it found.
-/
import proofs.«109896_j62998580298292_1_alg».proof.Proof.Gen.KernelIdeal.Frame
import proofs.«109896_j62998580298292_1_alg».proof.Proof.Spec
import proofs.«109896_j62998580298292_1_alg».proof.Proof.LibMatmulPlain
import Idealize.ShloMosaic.Lib.Pipeline.Value

set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at (r, q): row r of the left block against column q of the right block. -/
theorem pay (x0 : Vec Ideal S2000x16 .f32) (x1 : Vec Ideal S16x16 .f32) (j : S2000x16.Idx) :
    k2_pay1 (F := Ideal) x0 x1 j = ∑ k : Fin 16, x0 (ix2 (j 0) k) * x1 (ix2 k (j 1)) := by
  unfold k2_pay1
  rw [shapeCast_self]
  exact MatmulPlain.matmul_zero_apply (M := 2000) (K := 16) (N := 16) none x0 x1 j

/-- The block indices over the grid: the left and the result blocks are block t of the rows, the right block is the
    whole array. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) = t.val :=
  (by decide +kernel : ∀ t : Fin grid2.N, _)

/-- What point t writes back is block t of the product of the arrays the launch found. -/
theorem flushed (c : Dev nD) (t : Fin cfg2.N) :
    (dat2 V c).flushed 2 t
      = ((cfg2.win 2).blk t).view.read (Elt Ideal) (Spec.mm (M := 100000) (K := 16) (N := 16) (V c main_v45) (V c main_arg4)) := by
  show (cfg2.win 2).cut (grid2.coords t) ((dat2 V c).after 2 t) = _
  rw [after2_2]
  unfold out2_2
  rw [View.canon_unit_zero hz]
  simp only [View.ld_unit_zero (S := S2000x16) hz, View.ld_unit_zero (S := S16x16) hz]
  obtain ⟨e0, e1, e2, e3, e4, e5⟩ := idx_facts t
  funext j
  show k2_pay1 (iblk2 V c 0 t) (iblk2 V c 1 t) j
    = Spec.mm (M := 100000) (K := 16) (N := 16) (V c main_v45) (V c main_arg4) (((cfg2.win 2).blk t).view.emb j)
  refine (pay (iblk2 V c 0 t) (iblk2 V c 1 t) j).trans ?_
  refine Finset.sum_congr rfl fun k _ => ?_
  have h0 : ((cfg2.win 0).blk t).view.emb (ix2 (j 0) k) = ix2 ((((cfg2.win 2).blk t).view.emb j) 0) k := by
    funext a; apply Fin.ext
    match a with
    | ⟨0, _⟩ =>
      show win2_0.index t (0 : Fin 2) * 2000 + 1 * (j 0).val = win2_2.index t (0 : Fin 2) * 2000 + 1 * (j 0).val
      omega
    | ⟨1, _⟩ =>
      show win2_0.index t (1 : Fin 2) * 16 + 1 * k.val = k.val
      omega
  have h1 : ((cfg2.win 1).blk t).view.emb (ix2 k (j 1)) = ix2 k ((((cfg2.win 2).blk t).view.emb j) 1) := by
    funext a; apply Fin.ext
    match a with
    | ⟨0, _⟩ =>
      show win2_1.index t (0 : Fin 2) * 16 + 1 * k.val = k.val
      omega
    | ⟨1, _⟩ =>
      show win2_1.index t (1 : Fin 2) * 16 + 1 * (j 1).val = win2_2.index t (1 : Fin 2) * 16 + 1 * (j 1).val
      omega
  exact congrArg₂ (fun a b : EReal => a * b) (congrArg (V c main_v45) h0) (congrArg (V c main_arg4) h1)

/-- An index of the result array is in point t's block iff each coordinate is in the block's range on its axis. -/
theorem mem_blk (t : Fin cfg2.N) (i : S100000x16.Idx) :
    i ∈ ((cfg2.win 2).blk t).view.set ↔ ∀ a : Fin 2, win2_2.index t a * S2000x16.size a ≤ (i a).val
      ∧ (i a).val < win2_2.index t a * S2000x16.size a + S2000x16.size a := by
  show i ∈ ((View.whole main_v46).slice (win2_2.rect t)).set ↔ _
  rw [View.set_slice_whole, Rect.mem_set_unit]
  exact Iff.rfl

/-- Row p of the result is in the block of point p / 2000. -/
theorem cover (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  have hlt : (i 0).val / 2000 < cfg2.N := by
    show (i 0).val / 2000 < grid2.N
    rw [N_2]; omega
  obtain ⟨e0, e1, e2, e3, e4, e5⟩ := idx_facts ⟨(i 0).val / 2000, hlt⟩
  have e5' : win2_2.index ⟨(i 0).val / 2000, hlt⟩ (0 : Fin 2) = (i 0).val / 2000 := e5
  refine ⟨⟨(i 0).val / 2000, hlt⟩, flush2_2 _, ?_⟩
  rw [mem_blk]
  intro a
  match a with
  | ⟨0, _⟩ =>
    show win2_2.index ⟨(i 0).val / 2000, hlt⟩ (0 : Fin 2) * 2000 ≤ (i 0).val
      ∧ (i 0).val < win2_2.index ⟨(i 0).val / 2000, hlt⟩ (0 : Fin 2) * 2000 + 2000
    omega
  | ⟨1, _⟩ =>
    show win2_2.index ⟨(i 0).val / 2000, hlt⟩ (1 : Fin 2) * 16 ≤ (i 1).val
      ∧ (i 1).val < win2_2.index ⟨(i 0).val / 2000, hlt⟩ (1 : Fin 2) * 16 + 16
    omega

/-- The array the launch leaves is the product of the two arrays it found. -/
theorem final (c : Dev nD) :
    (dat2 V c).arrAt 2 cfg2.N = Spec.mm (M := 100000) (K := 16) (N := 16) (V c main_v45) (V c main_arg4) :=
  (dat2 V c).arrAt_eq_of_cover 2 _ (fun t _ => flushed V c t) cover

end Cert.KernelIdeal.Region2

end
-- ==== Proof.Region3.lean ====
/-
  The fourth launch: the bias and the row-wise log-softmax, 2000 rows at a time.

  The launch walks 50 blocks of 2000 rows; at block t the body reads rows 2000·t … 2000·t + 1999 of the feature array
  and the whole one-row bias array, and stores a 2000-by-16 block that is written back as the same rows of the result.
  Every entry of the block is a function of its own row of the features and of the bias, the same function for a
  block as for the whole array, so block t of the result is block t of that function of the whole arrays; the 50
  blocks tile the 100000 rows.
-/
import proofs.«109896_j62998580298292_1_alg».proof.Proof.Gen.KernelIdeal.Frame
import proofs.«109896_j62998580298292_1_alg».proof.Proof.Spec
import proofs.«109896_j62998580298292_1_alg».proof.Proof.LibRowReduce
import proofs.«109896_j62998580298292_1_alg».proof.Proof.LibKeepdims
import Idealize.ShloMosaic.Lib.Pipeline.Value
import Idealize.ShloMosaic.Lib.ValueLayout

set_option maxRecDepth 16384

noncomputable section

open scoped BigOperators

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- A one-row array read as a vector. -/
abbrev rowOf (x : (⟨2, ![1, 16]⟩ : Shape).Idx → EReal) : Spec.Vc 16 := fun i => x (ix2 (0 : Fin 1) (i 0))

/-- The bias added to the feature block. -/
theorem biased (x0 : Vec Ideal S2000x16 .f32) (x1 : Vec Ideal S1x16 .f32) :
    addf (F := Ideal) (φ := .f32) (shapeCast S2000x16 x0 shapeCasts_S2000x16_S2000x16)
      (broadcastTo S2000x16 (shapeCast S1x16 x1 shapeCasts_S1x16_S1x16) broadcasts_S1x16_S2000x16)
      = Spec.addRow (M := 2000) (N := 16) x0 (rowOf x1) := by
  funext j
  obtain ⟨p, q, rfl⟩ : ∃ (p : Fin 2000) (q : Fin 16), j = ix2 p q := ⟨j 0, j 1, eq_ix2 j⟩
  show (shapeCast S2000x16 x0 shapeCasts_S2000x16_S2000x16) (ix2 p q)
      + (broadcastTo S2000x16 (shapeCast S1x16 x1 shapeCasts_S1x16_S1x16) broadcasts_S1x16_S2000x16) (ix2 p q)
      = x0 (ix2 p q) + x1 (ix2 (0 : Fin 1) q)
  rw [shapeCast_self, shapeCast_self, broadcastTo_1b_ab_apply]

/-- Each row's maximum, kept as a column, spread over the lanes and subtracted: every entry less its row's maximum. -/
theorem lessMax (z : Vec Ideal S2000x16 .f32) (hφ : FKind.Formats .f32)
    (hacc : (0xFF800000#32 : BitVec FTy.f32.bits) = FKind.maximumf.neutral .f32 hφ) :
    subf (F := Ideal) (φ := .f32) z (broadcastTo S2000x16 (shapeCast S2000x1 (multiReduction (F := Ideal) .maximumf [1] S2000 z 0xFF800000#32
      reduces_S2000x16_S2000 hφ hacc) shapeCasts_S2000_S2000x1) broadcasts_S2000x1_S2000x16)
      = Spec.shifted (M := 2000) (N := 16) z := by
  funext j
  obtain ⟨p, q, rfl⟩ : ∃ (p : Fin 2000) (q : Fin 16), j = ix2 p q := ⟨j 0, j 1, eq_ix2 j⟩
  refine Eq.trans (b := z (ix2 p q) - Spec.rowMax (M := 2000) (N := 16) z p) ?_ rfl
  refine congrArg (fun v : EReal => z (ix2 p q) - v) ?_
  refine (Keepdims.broadcastTo_a1_ab_apply _ broadcasts_S2000x1_S2000x16 p q).trans ?_
  refine (Keepdims.shapeCast_a_a1_apply _ shapeCasts_S2000_S2000x1 p (0 : Fin 1)).trans ?_
  exact RowReduce.rowMax_apply (a := 2000) (b := 16) (φ := .f32) z 0xFF800000#32 reduces_S2000x16_S2000 hφ hacc p

/-- The logarithm of each row's sum of exponentials, kept as a column, spread over the lanes and subtracted. -/
theorem lessLogSum (y : Vec Ideal S2000x16 .f32) (hφ : FKind.Formats .f32)
    (hacc : (0x00000000#32 : BitVec FTy.f32.bits) = FKind.add.neutral .f32 hφ) :
    subf (F := Ideal) (φ := .f32) y (broadcastTo S2000x16 (log (F := Ideal) (φ := .f32) (shapeCast S2000x1 (multiReduction (F := Ideal) .add [1] S2000
      (exp (F := Ideal) (φ := .f32) y) 0x00000000#32 reduces_S2000x16_S2000 hφ hacc) shapeCasts_S2000_S2000x1)) broadcasts_S2000x1_S2000x16)
      = fun i : S2000x16.Idx => y i - Ideal.log (∑ k : Fin 16, Ideal.exp (y (ix2 (i 0) k))) := by
  funext j
  obtain ⟨p, q, rfl⟩ : ∃ (p : Fin 2000) (q : Fin 16), j = ix2 p q := ⟨j 0, j 1, eq_ix2 j⟩
  refine Eq.trans (b := y (ix2 p q) - Ideal.log (∑ k : Fin 16, Ideal.exp (y (ix2 p k)))) ?_ rfl
  refine congrArg (fun v : EReal => y (ix2 p q) - v) ?_
  refine (Keepdims.broadcastTo_a1_ab_apply _ broadcasts_S2000x1_S2000x16 p q).trans ?_
  refine congrArg Ideal.log ?_
  refine (Keepdims.shapeCast_a_a1_apply _ shapeCasts_S2000_S2000x1 p (0 : Fin 1)).trans ?_
  exact RowReduce.rowSum_apply (a := 2000) (b := 16) (φ := .f32) (exp (F := Ideal) (φ := .f32) y) 0x00000000#32
    reduces_S2000x16_S2000 hφ hacc p

/-- The body's stored block is the log-softmax layer of the feature block and the bias row. -/
theorem pay (x0 : Vec Ideal S2000x16 .f32) (x1 : Vec Ideal S1x16 .f32) :
    k3_pay1 (F := Ideal) x0 x1 = Spec.biasLogSoftmax (M := 2000) (N := 16) x0 (rowOf x1) := by
  unfold k3_pay1
  refine (lessLogSum _ _ _).trans ?_
  refine (congrArg (fun Y : Vec Ideal S2000x16 .f32 => fun i : S2000x16.Idx =>
      Y i - Ideal.log (∑ k : Fin 16, Ideal.exp (Y (ix2 (i 0) k))))
    ((lessMax _ _ _).trans (congrArg (Spec.shifted (M := 2000) (N := 16)) (biased x0 x1)))).trans ?_
  rfl

/-- The block indices over the grid: the feature and the result blocks are block t of the rows, the bias block is the
    whole one-row array. -/
theorem idx_facts : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) = t.val :=
  (by decide +kernel : ∀ t : Fin grid3.N, _)

/-- What point t writes back is block t of the layer of the arrays the launch found. -/
theorem flushed (c : Dev nD) (t : Fin cfg3.N) :
    (dat3 V c).flushed 2 t
      = ((cfg3.win 2).blk t).view.read (Elt Ideal) (Spec.biasLogSoftmax (M := 100000) (N := 16) (V c main_v59) (rowOf (V c main_v60))) := by
  show (cfg3.win 2).cut (grid3.coords t) ((dat3 V c).after 2 t) = _
  rw [after3_2]
  unfold out3_2
  rw [View.canon_unit_zero hz]
  simp only [View.ld_unit_zero (S := S2000x16) hz, View.ld_unit_zero (S := S1x16) hz]
  obtain ⟨e0, e1, e2, e3, e4, e5⟩ := idx_facts t
  funext j
  obtain ⟨p, q, rfl⟩ : ∃ (p : Fin 2000) (q : Fin 16), j = ix2 p q := ⟨j 0, j 1, eq_ix2 j⟩
  show k3_pay1 (iblk3 V c 0 t) (iblk3 V c 1 t) (ix2 p q)
    = Spec.biasLogSoftmax (M := 100000) (N := 16) (V c main_v59) (rowOf (V c main_v60)) (((cfg3.win 2).blk t).view.emb (ix2 p q))
  rw [pay (iblk3 V c 0 t) (iblk3 V c 1 t)]
  have hout : ((cfg3.win 2).blk t).view.emb (ix2 p q) = ix2 ((((cfg3.win 2).blk t).view.emb (ix2 p q)) 0) q := by
    funext a; apply Fin.ext
    match a with
    | ⟨0, _⟩ => rfl
    | ⟨1, _⟩ =>
      show win3_2.index t (1 : Fin 2) * 16 + 1 * q.val = q.val
      omega
  rw [hout]
  have h0 : ∀ k : Fin 16, ((cfg3.win 0).blk t).view.emb (ix2 p k) = ix2 ((((cfg3.win 2).blk t).view.emb (ix2 p q)) 0) k := fun k => by
    funext a; apply Fin.ext
    match a with
    | ⟨0, _⟩ =>
      show win3_0.index t (0 : Fin 2) * 2000 + 1 * p.val = win3_2.index t (0 : Fin 2) * 2000 + 1 * p.val
      omega
    | ⟨1, _⟩ =>
      show win3_0.index t (1 : Fin 2) * 16 + 1 * k.val = k.val
      omega
  have h1 : ∀ k : Fin 16, ((cfg3.win 1).blk t).view.emb (ix2 (0 : Fin 1) k) = ix2 (0 : Fin 1) k := fun k => by
    funext a; apply Fin.ext
    match a with
    | ⟨0, _⟩ =>
      show win3_1.index t (0 : Fin 2) * 1 + 1 * 0 = 0
      omega
    | ⟨1, _⟩ =>
      show win3_1.index t (1 : Fin 2) * 16 + 1 * k.val = k.val
      omega
  refine Spec.biasLogSoftmax_congr (iblk3 V c 0 t) (V c main_v59) (rowOf (iblk3 V c 1 t)) (rowOf (V c main_v60)) p _ q (fun k => congrArg (V c main_v59) (h0 k)) (fun k => congrArg (V c main_v60) (h1 k))

/-- An index of the result array is in point t's block iff each coordinate is in the block's range on its axis. -/
theorem mem_blk (t : Fin cfg3.N) (i : S100000x16.Idx) :
    i ∈ ((cfg3.win 2).blk t).view.set ↔ ∀ a : Fin 2, win3_2.index t a * S2000x16.size a ≤ (i a).val
      ∧ (i a).val < win3_2.index t a * S2000x16.size a + S2000x16.size a := by
  show i ∈ ((View.whole main_v61).slice (win3_2.rect t)).set ↔ _
  rw [View.set_slice_whole, Rect.mem_set_unit]
  exact Iff.rfl

/-- Row p of the result is in the block of point p / 2000. -/
theorem cover (i : S100000x16.Idx) :
    ∃ t : Fin cfg3.N, (cfg3.win 2).flush t = true ∧ i ∈ ((cfg3.win 2).blk t).view.set := by
  have hi0 : (i 0).val < 100000 := (i 0).isLt
  have hi1 : (i 1).val < 16 := (i 1).isLt
  have hlt : (i 0).val / 2000 < cfg3.N := by
    show (i 0).val / 2000 < grid3.N
    rw [N_3]; omega
  obtain ⟨e0, e1, e2, e3, e4, e5⟩ := idx_facts ⟨(i 0).val / 2000, hlt⟩
  have e5' : win3_2.index ⟨(i 0).val / 2000, hlt⟩ (0 : Fin 2) = (i 0).val / 2000 := e5
  refine ⟨⟨(i 0).val / 2000, hlt⟩, flush3_2 _, ?_⟩
  rw [mem_blk]
  intro a
  match a with
  | ⟨0, _⟩ =>
    show win3_2.index ⟨(i 0).val / 2000, hlt⟩ (0 : Fin 2) * 2000 ≤ (i 0).val
      ∧ (i 0).val < win3_2.index ⟨(i 0).val / 2000, hlt⟩ (0 : Fin 2) * 2000 + 2000
    omega
  | ⟨1, _⟩ =>
    show win3_2.index ⟨(i 0).val / 2000, hlt⟩ (1 : Fin 2) * 16 ≤ (i 1).val
      ∧ (i 1).val < win3_2.index ⟨(i 0).val / 2000, hlt⟩ (1 : Fin 2) * 16 + 16
    omega

/-- The array the launch leaves is the layer of the two arrays it found. -/
theorem final (c : Dev nD) :
    (dat3 V c).arrAt 2 cfg3.N = Spec.biasLogSoftmax (M := 100000) (N := 16) (V c main_v59) (rowOf (V c main_v60)) :=
  (dat3 V c).arrAt_eq_of_cover 2 _ (fun t _ => flushed V c t) cover

end Cert.KernelIdeal.Region3

end
-- ==== Proof.Layers.lean ====
/-
  The reference network, layer by layer, as functions of arrays.

  A two-layer graph convolution over N = 100000 nodes and E = 3200000 edges, with a self loop added at every node
  (E + N = 3300000 edge ends): a dense layer, an aggregation over the edges, a bias and a rectifier, a second dense
  layer, the same aggregation, a bias, and a row-wise log-softmax. The aggregation gathers the rows of the node
  features at the edges' sources, scales row e by the edge's weight n(e), and adds it into the row of the edge's
  target; sources, targets and weights are functions of the edge list alone, and so are the same for both layers.
  The aggregation is kept as the host operations that compute it and is never opened: both programs apply the same
  operations. The dense layers, the rectifier layer and the log-softmax layer are read at an index, from the
  reference's stages, as the specification's functions.
-/
import proofs.«109896_j62998580298292_1_alg».proof.Proof.RefRead
import proofs.«109896_j62998580298292_1_alg».proof.Proof.Spec

noncomputable section

open scoped BigOperators

namespace Cert.Layers

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The node inputs, 512 per node. -/
abbrev Inp := (⟨S100000x512, .f32⟩ : BufTy).Contents (Elt Ideal)
/-- The first layer's weights. -/
abbrev Wt1 := (⟨S512x16, .f32⟩ : BufTy).Contents (Elt Ideal)
/-- The second layer's weights. -/
abbrev Wt2 := (⟨S16x16, .f32⟩ : BufTy).Contents (Elt Ideal)
/-- The edge list: row 0 the sources, row 1 the targets. -/
abbrev Edges := (⟨S2x3200000, .i32⟩ : BufTy).Contents (Elt Ideal)
/-- Node features, 16 per node. -/
abbrev Feat := (⟨S100000x16, .f32⟩ : BufTy).Contents (Elt Ideal)
/-- A bias, one entry per feature. -/
abbrev Bias := (⟨S16, .f32⟩ : BufTy).Contents (Elt Ideal)
/-- One node index per edge end (the edges, then the self loops). -/
abbrev Ends := (⟨S3300000, .i32⟩ : BufTy).Contents (Elt Ideal)
/-- One weight per edge end. -/
abbrev Wts := (⟨S3300000, .f32⟩ : BufTy).Contents (Elt Ideal)

/-- The aggregation over given sources `s`, targets `d` and weights `n`: row e of `h` gathered at `s e` (a negative
    index wrapped by N first), scaled by `n e`, and added into row `d e` of a zero array. -/
def aggOf (h : Feat) (s d : Ends) (n : Wts) : Feat :=
  Host.scatterAdd (F := Ideal) scatter_S100000x16_S3300000x1_S3300000x16_1_0_0_1
    (broadcastInDim S100000x16 ![] bcast_S_S100000x16 (constant (F := Ideal) S_ .f32 0x00000000#32))
    (broadcastInDim S3300000x1 ![0] bcast_S3300000_S3300000x1_0 d)
    (mulf (Host.gather gather_S100000x16_S3300000x1_S3300000x16_1_0_n_n_0_1_116 h
            (broadcastInDim S3300000x1 ![0] bcast_S3300000_S3300000x1_0
              (select (cmpi .slt s (broadcastInDim S3300000 ![] bcast_S_S3300000 (constantI S_ 32 0#32)))
                (addi s (broadcastInDim S3300000 ![] bcast_S_S3300000 (constantI S_ 32 100000#32))) s)))
      (broadcastInDim S3300000x16 ![0, 1] bcast_S3300000x1_S3300000x16_0_1
        (broadcastInDim S3300000x1 ![0] bcast_S3300000_S3300000x1_0 n)))

/-- The sources, the targets and the symmetric-normalisation weights of the edge ends, from the edge list. -/
def src (e : Edges) : Ends := val_main_v5 (F := Ideal) e
def dst (e : Edges) : Ends := val_main_v6 (F := Ideal) e
def nrm (e : Edges) : Wts := val_main_v29 (F := Ideal) e

/-- The aggregation over the graph of an edge list. -/
def agg (h : Feat) (e : Edges) : Feat := aggOf h (src e) (dst e) (nrm e)

/-- The whole network, over the specification's layers. -/
def net (x : Inp) (e : Edges) (w1 : Wt1) (b1 : Bias) (w2 : Wt2) (b2 : Bias) : Feat :=
  Spec.biasLogSoftmax (M := 100000) (N := 16)
    (agg (Spec.mm (M := 100000) (K := 16) (N := 16)
      (Spec.biasRelu (M := 100000) (N := 16) (agg (Spec.mm (M := 100000) (K := 512) (N := 16) x w1) e) b1) w2) e) b2

/-- The reference's first dense layer is the product. -/
theorem dense1_eq (x : Inp) (w : Wt1) : val_main_v30 (F := Ideal) x w = Spec.mm (M := 100000) (K := 512) (N := 16) x w := by
  funext i
  rw [val_main_v30_apply]
  show _ = ∑ k : Fin 512, x (ix2 (i 0) k) * w (ix2 k (i 1))
  refine Finset.sum_congr rfl fun k _ => ?_
  have el : lidx_main_v30 i k = ix2 (i 0) k := funext fun a => Fin.ext (by match a with | ⟨0, _⟩ => rfl | ⟨1, _⟩ => rfl)
  have er : ridx_main_v30 i k = ix2 k (i 1) := funext fun a => Fin.ext (by match a with | ⟨0, _⟩ => rfl | ⟨1, _⟩ => rfl)
  rw [el, er]
  rfl

/-- Its first aggregation, by unfolding. -/
theorem agg1_eq (x : Inp) (e : Edges) (w : Wt1) : val_main_v43 (F := Ideal) x e w = agg (val_main_v30 (F := Ideal) x w) e := rfl

/-- Its bias and rectifier. -/
theorem relu_eq (x : Inp) (e : Edges) (w : Wt1) (b : Bias) :
    val_main_v47 (F := Ideal) x e w b = Spec.biasRelu (M := 100000) (N := 16) (val_main_v43 (F := Ideal) x e w) b := by
  funext i
  obtain ⟨p, q, rfl⟩ : ∃ (p : Fin 100000) (q : Fin 16), i = ix2 p q := ⟨i 0, i 1, eq_ix2 i⟩
  rw [val_main_v47_apply, val_main_v46_apply, val_main_v45_apply, val_main_v44_apply, val_main_call1_v0_apply,
    val_main_call1_cst_apply]
  have eb : idx_main_v44 (idx_main_v45 (ix2 p q)) = ix1 q := funext fun a => Fin.ext (by match a with | ⟨0, _⟩ => rfl)
  rw [eb]
  rfl

/-- Its second dense layer is the product. -/
theorem dense2_eq (x : Inp) (e : Edges) (w : Wt1) (b : Bias) (w2 : Wt2) :
    val_main_v74 (F := Ideal) x e w b w2 = Spec.mm (M := 100000) (K := 16) (N := 16) (val_main_v47 (F := Ideal) x e w b) w2 := by
  funext i
  rw [val_main_v74_apply]
  show _ = ∑ k : Fin 16, (val_main_v47 (F := Ideal) x e w b) (ix2 (i 0) k) * w2 (ix2 k (i 1))
  refine Finset.sum_congr rfl fun k _ => ?_
  have el : lidx_main_v74 i k = ix2 (i 0) k := funext fun a => Fin.ext (by match a with | ⟨0, _⟩ => rfl | ⟨1, _⟩ => rfl)
  have er : ridx_main_v74 i k = ix2 k (i 1) := funext fun a => Fin.ext (by match a with | ⟨0, _⟩ => rfl | ⟨1, _⟩ => rfl)
  rw [el, er]
  rfl

/-- Its second aggregation: the sources, targets and weights are recomputed from the same edge list by the same
    operations, so it is the first layer's aggregation, by unfolding. -/
theorem agg2_eq (x : Inp) (e : Edges) (w : Wt1) (b : Bias) (w2 : Wt2) :
    val_main_v87 (F := Ideal) x e w b w2 = agg (val_main_v74 (F := Ideal) x e w b w2) e := rfl

end Cert.Layers

end
-- ==== Proof.LibHostPieces.lean ====
/-
  Two facts for reading a long line of host operations piece by piece.

  What a buffer holds after a line of host operations is a fold over the line. When the whole line's result is too
  large a term to compare in one step, the line can be cut at any point: the fold over a concatenation is the fold
  over the second part, started from what the first part leaves (`after_append`); with `List.take_append_drop` this
  cuts a line given as one list into stretches whose results are small terms, each read from any incoming contents.

  An operation spelt over typed references moves its operands from each buffer's own type to the tensor type it
  carries and its result back; these transports are identities, and a value moved to a buffer's type and back is the
  value (`ofBuf_toBuf`). Rewriting with it before comparing a stretch's result with a closed term removes the pairs
  of transports that otherwise stand between the two sides. Both facts hold for any topology, signature and element
  values.
-/
import Idealize.ShloMosaic.Lib.StableHlo.Run

namespace Idealize.ShloMosaic.HostPieces

open Idealize.ShloMosaic Idealize.ShloMosaic.StableHlo

variable {τ : Topo} {sig : RefSig} {Val : EltTy → Type}

/-- Running two stretches of operations one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => exact ih _

/-- A line of operations cut at position `n`: the part after `n` run from what the first `n` leave. -/
theorem after_take_drop (n : ℕ) (l : List (HloOp τ sig Val)) (V : Valuation τ sig Val) :
    after l V = after (l.drop n) (after (l.take n) V) := by
  rw [← after_append, List.take_append_drop]

/-- Contents moved to a buffer's own type and back are unchanged. -/
theorem ofBuf_toBuf {T : BufTy} (x : TRef sig T) (v : T.Contents Val) : x.ofBuf (x.toBuf v) = v := by
  obtain ⟨r, rfl, _, _⟩ := x
  rfl

end Idealize.ShloMosaic.HostPieces
-- ==== Proof.LibResultsRest.lean ====
/-
  A finishing step for reading a line of host operations.

  Reading what a buffer holds after a line of operations is a rewriting computation. Done as one simplification
  pass it does not reach the operands of a concatenation, which sit inside a list of (shape, array) pairs; what is
  left there — a short chain of results at an operand's reference — is finished here by rewriting with each
  operation's result at its own reference and at any other reference, one at a time.
-/
import Idealize.ShloMosaic.Lib.StableHlo.Run

namespace Idealize.ShloMosaic.StableHlo

/-- Rewrites every remaining operation result, at its own reference or at another one, until none is left. -/
macro "after_results_rest" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

end Idealize.ShloMosaic.StableHlo
-- ==== Proof.LibTypedRefs.lean ====
/-
  Contents moved between a buffer's own type and the tensor type a typed reference carries.

  A typed reference is a buffer together with a proof that the buffer's type is a given tensor type; an operation
  spelt over typed references moves its operands' contents from the buffers' types to the tensor types and its result
  back. The two types are equal, so the moves are identities — up to the equality: the moved value is heterogeneously
  equal to the original (`toBuf_heq`), and contents that are heterogeneously equal to a value at the tensor type are
  moved to that value (`ofBuf_eq`). Proved for an arbitrary typed reference, these remove a move without ever
  computing a concrete buffer's type.
-/
import Idealize.ShloMosaic.Lib.StableHlo

namespace Idealize.ShloMosaic.StableHlo.TRef

variable {sig : RefSig} {Val : EltTy → Type} {T : BufTy}

/-- A value moved to the buffer's type is the same value. -/
theorem toBuf_heq (x : TRef sig T) (v : T.Contents Val) : HEq (x.toBuf v) v := by
  obtain ⟨r, rfl, _, _⟩ := x
  exact HEq.rfl

/-- Buffer contents that are a given value of the tensor type are moved to that value. -/
theorem ofBuf_eq (x : TRef sig T) {v : x.ref.ty.Contents Val} {v' : T.Contents Val} (h : HEq v v') : x.ofBuf v = v' := by
  obtain ⟨r, rfl, _, _⟩ := x
  exact eq_of_heq h

end Idealize.ShloMosaic.StableHlo.TRef
-- ==== Proof.HostGlue.lean ====
/-
  The kernel program's host operations between its launches, read as functions of the buffers they find.

  Before the first launch the program computes, from the edge list alone, the sources, the targets and the weights
  of the 3300000 edge ends; after the first and the third launch it aggregates the launch's result over the edges and
  casts the layer's bias to a one-row array. These are the operations the reference applies (the aggregation is never
  opened: it is the same term). Each statement is over an arbitrary valuation of the buffers at the stretch's start,
  so nothing here depends on how that valuation came about.
-/
import proofs.«109896_j62998580298292_1_alg».proof.Proof.Gen.KernelIdeal.Frame
import proofs.«109896_j62998580298292_1_alg».proof.Proof.Layers
import proofs.«109896_j62998580298292_1_alg».proof.Proof.LibHostPieces
import proofs.«109896_j62998580298292_1_alg».proof.Proof.LibResultsRest
import proofs.«109896_j62998580298292_1_alg».proof.Proof.LibTypedRefs

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo

variable (W : Valuation τ sig (Elt Ideal))

variable (e : Layers.Edges)

/-! ## Before the first launch, in three stretches: up to the outlined selection, the selection, and after it -/

theorem k0_v5 (h_arg1 : W (Proc.devRef .tc main_arg1) = e) :
    after hostOps0 W (Proc.devRef .tc main_v5) = Layers.src e := by
  after_results_simp
  after_results_rest
  try simp only [HostPieces.ofBuf_toBuf]
  rw [h_arg1]
  rfl
theorem k0_v6 (h_arg1 : W (Proc.devRef .tc main_arg1) = e) :
    after hostOps0 W (Proc.devRef .tc main_v6) = Layers.dst e := by
  after_results_simp
  after_results_rest
  try simp only [HostPieces.ofBuf_toBuf]
  rw [h_arg1]
  rfl
theorem k0_v12 (h_arg1 : W (Proc.devRef .tc main_arg1) = e) :
    after hostOps0 W (Proc.devRef .tc main_v12) = Cert.ReferenceIdeal.Read.val_main_v12 (F := Ideal) e := by
  after_results_simp
  after_results_rest
  try simp only [HostPieces.ofBuf_toBuf]
  rw [h_arg1]
  rfl
theorem k0_v13 (h_arg1 : W (Proc.devRef .tc main_arg1) = e) :
    after hostOps0 W (Proc.devRef .tc main_v13) = Cert.ReferenceIdeal.Read.val_main_v13 (F := Ideal) e := by
  after_results_simp
  after_results_rest
  try simp only [HostPieces.ofBuf_toBuf]
  rw [h_arg1]
  rfl
theorem k0_cst_2  :
    after hostOps0 W (Proc.devRef .tc main_cst_2) = Cert.ReferenceIdeal.Read.val_main_cst_2 (F := Ideal) := by
  after_results_simp
  after_results_rest
  try simp only [HostPieces.ofBuf_toBuf]
  rfl
theorem k0_arg0 : after hostOps0 W (Proc.devRef .tc main_arg0) = W (Proc.devRef .tc main_arg0) := by after_results_simp
theorem k0_arg2 : after hostOps0 W (Proc.devRef .tc main_arg2) = W (Proc.devRef .tc main_arg2) := by after_results_simp
theorem k0_arg3 : after hostOps0 W (Proc.devRef .tc main_arg3) = W (Proc.devRef .tc main_arg3) := by after_results_simp
theorem k0_arg4 : after hostOps0 W (Proc.devRef .tc main_arg4) = W (Proc.devRef .tc main_arg4) := by after_results_simp
theorem k0_arg5 : after hostOps0 W (Proc.devRef .tc main_arg5) = W (Proc.devRef .tc main_arg5) := by after_results_simp

theorem k1_v14 (h_v12 : W (Proc.devRef .tc main_v12) = Cert.ReferenceIdeal.Read.val_main_v12 (F := Ideal) e) (h_v13 : W (Proc.devRef .tc main_v13) = Cert.ReferenceIdeal.Read.val_main_v13 (F := Ideal) e) (h_cst_2 : W (Proc.devRef .tc main_cst_2) = Cert.ReferenceIdeal.Read.val_main_cst_2 (F := Ideal)) :
    after hostOps0_1 W (Proc.devRef .tc main_v14) = Cert.ReferenceIdeal.Read.val_main_v14 (F := Ideal) e := by
  after_results_simp
  after_results_rest
  try simp only [HostPieces.ofBuf_toBuf]
  rw [TRef.ofBuf_eq (TRef.of (T := ⟨S100000, .i1⟩) main_v12) (heq_of_eq h_v12),
    TRef.ofBuf_eq (TRef.of (T := ⟨S100000, .f32⟩) main_v13) (heq_of_eq h_v13),
    TRef.ofBuf_eq (TRef.of (T := ⟨S_, .f32⟩) main_cst_2) (heq_of_eq h_cst_2)]
  refine eq_of_heq ((TRef.toBuf_heq _ _).trans (heq_of_eq ?_))
  rfl
theorem k1_v5 : after hostOps0_1 W (Proc.devRef .tc main_v5) = W (Proc.devRef .tc main_v5) := by after_results_simp
theorem k1_v6 : after hostOps0_1 W (Proc.devRef .tc main_v6) = W (Proc.devRef .tc main_v6) := by after_results_simp
theorem k1_arg0 : after hostOps0_1 W (Proc.devRef .tc main_arg0) = W (Proc.devRef .tc main_arg0) := by after_results_simp
theorem k1_arg2 : after hostOps0_1 W (Proc.devRef .tc main_arg2) = W (Proc.devRef .tc main_arg2) := by after_results_simp
theorem k1_arg3 : after hostOps0_1 W (Proc.devRef .tc main_arg3) = W (Proc.devRef .tc main_arg3) := by after_results_simp
theorem k1_arg4 : after hostOps0_1 W (Proc.devRef .tc main_arg4) = W (Proc.devRef .tc main_arg4) := by after_results_simp
theorem k1_arg5 : after hostOps0_1 W (Proc.devRef .tc main_arg5) = W (Proc.devRef .tc main_arg5) := by after_results_simp

theorem k2_v29 (h_v14 : W (Proc.devRef .tc main_v14) = Cert.ReferenceIdeal.Read.val_main_v14 (F := Ideal) e) (h_v5 : W (Proc.devRef .tc main_v5) = Layers.src e) (h_v6 : W (Proc.devRef .tc main_v6) = Layers.dst e) :
    after hostOps0_2 W (Proc.devRef .tc main_v29) = Layers.nrm e := by
  after_results_simp
  after_results_rest
  try simp only [HostPieces.ofBuf_toBuf]
  rw [h_v14, h_v5, h_v6]
  rfl
theorem k2_v5 : after hostOps0_2 W (Proc.devRef .tc main_v5) = W (Proc.devRef .tc main_v5) := by after_results_simp
theorem k2_v6 : after hostOps0_2 W (Proc.devRef .tc main_v6) = W (Proc.devRef .tc main_v6) := by after_results_simp
theorem k2_arg0 : after hostOps0_2 W (Proc.devRef .tc main_arg0) = W (Proc.devRef .tc main_arg0) := by after_results_simp
theorem k2_arg2 : after hostOps0_2 W (Proc.devRef .tc main_arg2) = W (Proc.devRef .tc main_arg2) := by after_results_simp
theorem k2_arg3 : after hostOps0_2 W (Proc.devRef .tc main_arg3) = W (Proc.devRef .tc main_arg3) := by after_results_simp
theorem k2_arg4 : after hostOps0_2 W (Proc.devRef .tc main_arg4) = W (Proc.devRef .tc main_arg4) := by after_results_simp
theorem k2_arg5 : after hostOps0_2 W (Proc.devRef .tc main_arg5) = W (Proc.devRef .tc main_arg5) := by after_results_simp

/-- The three stretches in order. -/
abbrev pre : Valuation τ sig (Elt Ideal) := after hostOps0_2 (after hostOps0_1 (after hostOps0 W))

theorem pre_v5 : pre W (Proc.devRef .tc main_v5) = Layers.src (W (Proc.devRef .tc main_arg1)) :=
  (k2_v5 (W := after hostOps0_1 (after hostOps0 W))).trans ((k1_v5 (W := after hostOps0 W)).trans (k0_v5 (W := W) (e := W (Proc.devRef .tc main_arg1)) rfl))
theorem pre_v6 : pre W (Proc.devRef .tc main_v6) = Layers.dst (W (Proc.devRef .tc main_arg1)) :=
  (k2_v6 (W := after hostOps0_1 (after hostOps0 W))).trans ((k1_v6 (W := after hostOps0 W)).trans (k0_v6 (W := W) (e := W (Proc.devRef .tc main_arg1)) rfl))
theorem pre_v29 : pre W (Proc.devRef .tc main_v29) = Layers.nrm (W (Proc.devRef .tc main_arg1)) :=
  k2_v29 (W := after hostOps0_1 (after hostOps0 W)) (e := W (Proc.devRef .tc main_arg1))
    (k1_v14 (W := after hostOps0 W) (e := W (Proc.devRef .tc main_arg1)) (k0_v12 (W := W) (e := W (Proc.devRef .tc main_arg1)) rfl)
      (k0_v13 (W := W) (e := W (Proc.devRef .tc main_arg1)) rfl) (k0_cst_2 (W := W)))
    ((k1_v5 (W := after hostOps0 W)).trans (k0_v5 (W := W) (e := W (Proc.devRef .tc main_arg1)) rfl))
    ((k1_v6 (W := after hostOps0 W)).trans (k0_v6 (W := W) (e := W (Proc.devRef .tc main_arg1)) rfl))
theorem pre_arg0 : pre W (Proc.devRef .tc main_arg0) = W (Proc.devRef .tc main_arg0) :=
  (k2_arg0 (W := after hostOps0_1 (after hostOps0 W))).trans ((k1_arg0 (W := after hostOps0 W)).trans (k0_arg0 (W := W)))
theorem pre_arg2 : pre W (Proc.devRef .tc main_arg2) = W (Proc.devRef .tc main_arg2) :=
  (k2_arg2 (W := after hostOps0_1 (after hostOps0 W))).trans ((k1_arg2 (W := after hostOps0 W)).trans (k0_arg2 (W := W)))
theorem pre_arg3 : pre W (Proc.devRef .tc main_arg3) = W (Proc.devRef .tc main_arg3) :=
  (k2_arg3 (W := after hostOps0_1 (after hostOps0 W))).trans ((k1_arg3 (W := after hostOps0 W)).trans (k0_arg3 (W := W)))
theorem pre_arg4 : pre W (Proc.devRef .tc main_arg4) = W (Proc.devRef .tc main_arg4) :=
  (k2_arg4 (W := after hostOps0_1 (after hostOps0 W))).trans ((k1_arg4 (W := after hostOps0 W)).trans (k0_arg4 (W := W)))
theorem pre_arg5 : pre W (Proc.devRef .tc main_arg5) = W (Proc.devRef .tc main_arg5) :=
  (k2_arg5 (W := after hostOps0_1 (after hostOps0 W))).trans ((k1_arg5 (W := after hostOps0 W)).trans (k0_arg5 (W := W)))

/-- After the first launch: the aggregation of its result, -/
theorem mid_v43 : after hostOps1 W (Proc.devRef .tc main_v43)
    = Layers.aggOf (W (Proc.devRef .tc main_v30)) (W (Proc.devRef .tc main_v5)) (W (Proc.devRef .tc main_v6)) (W (Proc.devRef .tc main_v29)) := by
  after_results_simp
  after_results_rest
  rfl
/-- the first bias as a one-row array, -/
theorem mid_v44 : after hostOps1 W (Proc.devRef .tc main_v44)
    = shapeCast S1x16 (W (Proc.devRef .tc main_arg3)) shapeCasts_S16_S1x16 := by
  after_results_simp
  after_results_rest
  rfl
/-- and the buffers it leaves alone. -/
theorem mid_v5 : after hostOps1 W (Proc.devRef .tc main_v5) = W (Proc.devRef .tc main_v5) := by after_results_simp
theorem mid_v6 : after hostOps1 W (Proc.devRef .tc main_v6) = W (Proc.devRef .tc main_v6) := by after_results_simp
theorem mid_v29 : after hostOps1 W (Proc.devRef .tc main_v29) = W (Proc.devRef .tc main_v29) := by after_results_simp
theorem mid_arg4 : after hostOps1 W (Proc.devRef .tc main_arg4) = W (Proc.devRef .tc main_arg4) := by after_results_simp
theorem mid_arg5 : after hostOps1 W (Proc.devRef .tc main_arg5) = W (Proc.devRef .tc main_arg5) := by after_results_simp

/-- After the third launch: the aggregation of its result, -/
theorem post_v59 : after hostOps3 W (Proc.devRef .tc main_v59)
    = Layers.aggOf (W (Proc.devRef .tc main_v46)) (W (Proc.devRef .tc main_v5)) (W (Proc.devRef .tc main_v6)) (W (Proc.devRef .tc main_v29)) := by
  after_results_simp
  after_results_rest
  rfl
/-- and the second bias as a one-row array. -/
theorem post_v60 : after hostOps3 W (Proc.devRef .tc main_v60)
    = shapeCast S1x16 (W (Proc.devRef .tc main_arg5)) shapeCasts_S16_S1x16 := by
  after_results_simp
  after_results_rest
  rfl

end Cert.KernelIdeal.Glue

end
-- ==== Proof.KernelValue.lean ====
/-
  The kernel program's result array as the network of its arguments.

  The generated frame names the buffer contents at every boundary between the program's segments: `W3` when the
  first launch is entered, `W4` when it is left, `W5` after the first aggregation, `W6` and `W7` after the second
  and third launches, `W8` after the second aggregation, `W9` at the end. Walking the boundaries in order, each buffer
  a later segment reads is a function of the launch memory: the edge ends' sources, targets and weights and the
  argument arrays pass through untouched; the first launch leaves x · w1; the aggregation its aggregate; the second
  launch the bias and rectifier; the third the product with w2; the second aggregation its aggregate; the last
  launch the bias and log-softmax. The composite is the network the reference computes.
-/
import proofs.«109896_j62998580298292_1_alg».proof.Proof.Gen.KernelIdeal.Frame
import proofs.«109896_j62998580298292_1_alg».proof.Proof.Region0
import proofs.«109896_j62998580298292_1_alg».proof.Proof.Region1
import proofs.«109896_j62998580298292_1_alg».proof.Proof.Region2
import proofs.«109896_j62998580298292_1_alg».proof.Proof.Region3
import proofs.«109896_j62998580298292_1_alg».proof.Proof.HostGlue
import proofs.«109896_j62998580298292_1_alg».proof.Proof.Layers
import Idealize.ShloMosaic.Lib.ValueLayout

set_option maxRecDepth 16384

noncomputable section

namespace Cert.KernelIdeal.KernelValue

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- A bias cast to a one-row array and read back as a vector is the bias. -/
theorem rowOf_cast (b : (⟨1, ![16]⟩ : Shape).Idx → EReal) (h : (⟨1, ![16]⟩ : Shape).ShapeCasts ⟨2, ![1, 16]⟩) :
    (fun i : (⟨1, ![16]⟩ : Shape).Idx => shapeCast ⟨2, ![1, 16]⟩ b h (ix2 (0 : Fin 1) (i 0))) = b := by
  funext i
  obtain ⟨q, rfl⟩ : ∃ q : Fin 16, i = ix1 q := ⟨i 0, eq_ix1 i⟩
  exact shapeCast_a_1a_apply b h (0 : Fin 1) q

/-! ## When the first launch is entered -/

theorem e3_v5 : W3 m ρ c (Proc.devRef .tc main_v5) = Layers.src (m ((c : Thread nD τ).loc main_arg1)) := Glue.pre_v5 (W0 m ρ c)
theorem e3_v6 : W3 m ρ c (Proc.devRef .tc main_v6) = Layers.dst (m ((c : Thread nD τ).loc main_arg1)) := Glue.pre_v6 (W0 m ρ c)
theorem e3_v29 : W3 m ρ c (Proc.devRef .tc main_v29) = Layers.nrm (m ((c : Thread nD τ).loc main_arg1)) := Glue.pre_v29 (W0 m ρ c)
theorem e3_arg0 : W3 m ρ c (Proc.devRef .tc main_arg0) = (m ((c : Thread nD τ).loc main_arg0)) := Glue.pre_arg0 (W0 m ρ c)
theorem e3_arg2 : W3 m ρ c (Proc.devRef .tc main_arg2) = (m ((c : Thread nD τ).loc main_arg2)) := Glue.pre_arg2 (W0 m ρ c)
theorem e3_arg3 : W3 m ρ c (Proc.devRef .tc main_arg3) = (m ((c : Thread nD τ).loc main_arg3)) := Glue.pre_arg3 (W0 m ρ c)
theorem e3_arg4 : W3 m ρ c (Proc.devRef .tc main_arg4) = (m ((c : Thread nD τ).loc main_arg4)) := Glue.pre_arg4 (W0 m ρ c)
theorem e3_arg5 : W3 m ρ c (Proc.devRef .tc main_arg5) = (m ((c : Thread nD τ).loc main_arg5)) := Glue.pre_arg5 (W0 m ρ c)

/-! ## When it is left -/

theorem e4_v30 : W4 m ρ c (Proc.devRef .tc main_v30) = Spec.mm (M := 100000) (K := 512) (N := 16) (m ((c : Thread nD τ).loc main_arg0)) (m ((c : Thread nD τ).loc main_arg2)) := by
  refine (W4_arr m ρ c 2).trans ((Region0.final (V3 m ρ) c).trans ?_)
  show Spec.mm (M := 100000) (K := 512) (N := 16) (W3 m ρ c (Proc.devRef .tc main_arg0)) (W3 m ρ c (Proc.devRef .tc main_arg2)) = _
  rw [e3_arg0, e3_arg2]
theorem e4_v5 : W4 m ρ c (Proc.devRef .tc main_v5) = Layers.src (m ((c : Thread nD τ).loc main_arg1)) := (W4_of_ne m ρ c main_v5 (by decide)).trans (e3_v5 m ρ c)
theorem e4_v6 : W4 m ρ c (Proc.devRef .tc main_v6) = Layers.dst (m ((c : Thread nD τ).loc main_arg1)) := (W4_of_ne m ρ c main_v6 (by decide)).trans (e3_v6 m ρ c)
theorem e4_v29 : W4 m ρ c (Proc.devRef .tc main_v29) = Layers.nrm (m ((c : Thread nD τ).loc main_arg1)) := (W4_of_ne m ρ c main_v29 (by decide)).trans (e3_v29 m ρ c)
theorem e4_arg3 : W4 m ρ c (Proc.devRef .tc main_arg3) = (m ((c : Thread nD τ).loc main_arg3)) := (W4_of_ne m ρ c main_arg3 (by decide)).trans (e3_arg3 m ρ c)
theorem e4_arg4 : W4 m ρ c (Proc.devRef .tc main_arg4) = (m ((c : Thread nD τ).loc main_arg4)) := (W4_of_ne m ρ c main_arg4 (by decide)).trans (e3_arg4 m ρ c)
theorem e4_arg5 : W4 m ρ c (Proc.devRef .tc main_arg5) = (m ((c : Thread nD τ).loc main_arg5)) := (W4_of_ne m ρ c main_arg5 (by decide)).trans (e3_arg5 m ρ c)

/-! ## After the first aggregation -/

/-- The first layer before its bias. -/
abbrev a1 : Layers.Feat := Layers.agg (Spec.mm (M := 100000) (K := 512) (N := 16) (m ((c : Thread nD τ).loc main_arg0)) (m ((c : Thread nD τ).loc main_arg2))) (m ((c : Thread nD τ).loc main_arg1))

theorem e5_v43 : W5 m ρ c (Proc.devRef .tc main_v43) = a1 m c := by
  refine (Glue.mid_v43 (W4 m ρ c)).trans ?_
  rw [e4_v30, e4_v5, e4_v6, e4_v29]
  rfl
theorem e5_v44 : W5 m ρ c (Proc.devRef .tc main_v44) = shapeCast S1x16 (m ((c : Thread nD τ).loc main_arg3)) shapeCasts_S16_S1x16 := by
  refine (Glue.mid_v44 (W4 m ρ c)).trans ?_
  rw [e4_arg3]
theorem e5_v5 : W5 m ρ c (Proc.devRef .tc main_v5) = Layers.src (m ((c : Thread nD τ).loc main_arg1)) := (Glue.mid_v5 (W4 m ρ c)).trans (e4_v5 m ρ c)
theorem e5_v6 : W5 m ρ c (Proc.devRef .tc main_v6) = Layers.dst (m ((c : Thread nD τ).loc main_arg1)) := (Glue.mid_v6 (W4 m ρ c)).trans (e4_v6 m ρ c)
theorem e5_v29 : W5 m ρ c (Proc.devRef .tc main_v29) = Layers.nrm (m ((c : Thread nD τ).loc main_arg1)) := (Glue.mid_v29 (W4 m ρ c)).trans (e4_v29 m ρ c)
theorem e5_arg4 : W5 m ρ c (Proc.devRef .tc main_arg4) = (m ((c : Thread nD τ).loc main_arg4)) := (Glue.mid_arg4 (W4 m ρ c)).trans (e4_arg4 m ρ c)
theorem e5_arg5 : W5 m ρ c (Proc.devRef .tc main_arg5) = (m ((c : Thread nD τ).loc main_arg5)) := (Glue.mid_arg5 (W4 m ρ c)).trans (e4_arg5 m ρ c)

/-! ## After the second launch -/

/-- The first layer. -/
abbrev h1 : Layers.Feat := Spec.biasRelu (M := 100000) (N := 16) (a1 m c) (m ((c : Thread nD τ).loc main_arg3))

theorem e6_v45 : W6 m ρ c (Proc.devRef .tc main_v45) = h1 m c := by
  refine (W6_arr m ρ c 2).trans ((Region1.final (V5 m ρ) c).trans ?_)
  show Spec.biasRelu (M := 100000) (N := 16) (W5 m ρ c (Proc.devRef .tc main_v43)) (Region1.rowOf (W5 m ρ c (Proc.devRef .tc main_v44))) = _
  rw [e5_v43, e5_v44]
  exact congrArg (Spec.biasRelu (M := 100000) (N := 16) (a1 m c)) (rowOf_cast (m ((c : Thread nD τ).loc main_arg3)) shapeCasts_S16_S1x16)
theorem e6_v5 : W6 m ρ c (Proc.devRef .tc main_v5) = Layers.src (m ((c : Thread nD τ).loc main_arg1)) := (W6_of_ne m ρ c main_v5 (by decide)).trans (e5_v5 m ρ c)
theorem e6_v6 : W6 m ρ c (Proc.devRef .tc main_v6) = Layers.dst (m ((c : Thread nD τ).loc main_arg1)) := (W6_of_ne m ρ c main_v6 (by decide)).trans (e5_v6 m ρ c)
theorem e6_v29 : W6 m ρ c (Proc.devRef .tc main_v29) = Layers.nrm (m ((c : Thread nD τ).loc main_arg1)) := (W6_of_ne m ρ c main_v29 (by decide)).trans (e5_v29 m ρ c)
theorem e6_arg4 : W6 m ρ c (Proc.devRef .tc main_arg4) = (m ((c : Thread nD τ).loc main_arg4)) := (W6_of_ne m ρ c main_arg4 (by decide)).trans (e5_arg4 m ρ c)
theorem e6_arg5 : W6 m ρ c (Proc.devRef .tc main_arg5) = (m ((c : Thread nD τ).loc main_arg5)) := (W6_of_ne m ρ c main_arg5 (by decide)).trans (e5_arg5 m ρ c)

/-! ## After the third launch -/

theorem e7_v46 : W7 m ρ c (Proc.devRef .tc main_v46) = Spec.mm (M := 100000) (K := 16) (N := 16) (h1 m c) (m ((c : Thread nD τ).loc main_arg4)) := by
  refine (W7_arr m ρ c 2).trans ((Region2.final (V6 m ρ) c).trans ?_)
  show Spec.mm (M := 100000) (K := 16) (N := 16) (W6 m ρ c (Proc.devRef .tc main_v45)) (W6 m ρ c (Proc.devRef .tc main_arg4)) = _
  rw [e6_v45, e6_arg4]
theorem e7_v5 : W7 m ρ c (Proc.devRef .tc main_v5) = Layers.src (m ((c : Thread nD τ).loc main_arg1)) := (W7_of_ne m ρ c main_v5 (by decide)).trans (e6_v5 m ρ c)
theorem e7_v6 : W7 m ρ c (Proc.devRef .tc main_v6) = Layers.dst (m ((c : Thread nD τ).loc main_arg1)) := (W7_of_ne m ρ c main_v6 (by decide)).trans (e6_v6 m ρ c)
theorem e7_v29 : W7 m ρ c (Proc.devRef .tc main_v29) = Layers.nrm (m ((c : Thread nD τ).loc main_arg1)) := (W7_of_ne m ρ c main_v29 (by decide)).trans (e6_v29 m ρ c)
theorem e7_arg5 : W7 m ρ c (Proc.devRef .tc main_arg5) = (m ((c : Thread nD τ).loc main_arg5)) := (W7_of_ne m ρ c main_arg5 (by decide)).trans (e6_arg5 m ρ c)

/-! ## After the second aggregation -/

/-- The second layer before its bias. -/
abbrev a2 : Layers.Feat := Layers.agg (Spec.mm (M := 100000) (K := 16) (N := 16) (h1 m c) (m ((c : Thread nD τ).loc main_arg4))) (m ((c : Thread nD τ).loc main_arg1))

theorem e8_v59 : W8 m ρ c (Proc.devRef .tc main_v59) = a2 m c := by
  refine (Glue.post_v59 (W7 m ρ c)).trans ?_
  rw [e7_v46, e7_v5, e7_v6, e7_v29]
  rfl
theorem e8_v60 : W8 m ρ c (Proc.devRef .tc main_v60) = shapeCast S1x16 (m ((c : Thread nD τ).loc main_arg5)) shapeCasts_S16_S1x16 := by
  refine (Glue.post_v60 (W7 m ρ c)).trans ?_
  rw [e7_arg5]

/-! ## At the end -/

/-- The result array ends at the network of the launch memory's argument arrays. -/
theorem result : W9 m ρ c (Proc.devRef .tc main_v61)
    = Layers.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((Region3.final (V8 m ρ) c).trans ?_)
  show Spec.biasLogSoftmax (M := 100000) (N := 16) (W8 m ρ c (Proc.devRef .tc main_v59)) (Region3.rowOf (W8 m ρ c (Proc.devRef .tc main_v60))) = _
  rw [e8_v59, e8_v60]
  exact congrArg (Spec.biasLogSoftmax (M := 100000) (N := 16) (a2 m c)) (rowOf_cast (m ((c : Thread nD τ).loc main_arg5)) shapeCasts_S16_S1x16)

end Cert.KernelIdeal.KernelValue

end
-- ==== Proof.RefS0.lean ====
/-
  The reference's line of host operations, first part: the edge ends' sources, targets and weights.

  Three stretches: up to the outlined selection of the inverse root where the degree is positive, the selection, and
  the gathers and the product after it. Each is read from an arbitrary valuation of the buffers at its start: what it
  leaves in a buffer a later stretch reads is the reference's stage of the edge list, given that the buffers it reads
  hold their stages; the buffers it does not write are left alone.
-/
import proofs.«109896_j62998580298292_1_alg».proof.Proof.RefRead
import proofs.«109896_j62998580298292_1_alg».proof.Proof.LibHostPieces
import proofs.«109896_j62998580298292_1_alg».proof.Proof.LibResultsRest
import proofs.«109896_j62998580298292_1_alg».proof.Proof.LibTypedRefs

set_option maxRecDepth 16384

noncomputable section

namespace Cert.ReferenceIdeal.RunValue

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (W : Valuation τ sig (Elt Ideal))
variable (x : (⟨S100000x512, .f32⟩ : BufTy).Contents (Elt Ideal)) (e : (⟨S2x3200000, .i32⟩ : BufTy).Contents (Elt Ideal))
  (w1 : (⟨S512x16, .f32⟩ : BufTy).Contents (Elt Ideal)) (b1 : (⟨S16, .f32⟩ : BufTy).Contents (Elt Ideal))
  (w2 : (⟨S16x16, .f32⟩ : BufTy).Contents (Elt Ideal)) (b2 : (⟨S16, .f32⟩ : BufTy).Contents (Elt Ideal))

/-! ## Stretch 0a: the edge ends and the degrees' comparison and inverse root -/

/-- Its operations. -/
abbrev ops0a : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    nullary main_v4 (iotaInDim S100000 32 0),
    binary main_v1 main_v4 main_v5 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v4 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

theorem s0a_v1 (h_arg1 : W (Proc.devRef .tc main_arg1) = e) :
    after (ops0a (F := Ideal)) W (Proc.devRef .tc main_v1) = val_main_v1 (F := Ideal) e := by
  after_results_simp
  after_results_rest
  rw [h_arg1]
  rfl
theorem s0a_v3 (h_arg1 : W (Proc.devRef .tc main_arg1) = e) :
    after (ops0a (F := Ideal)) W (Proc.devRef .tc main_v3) = val_main_v3 (F := Ideal) e := by
  after_results_simp
  after_results_rest
  rw [h_arg1]
  rfl
theorem s0a_v5 (h_arg1 : W (Proc.devRef .tc main_arg1) = e) :
    after (ops0a (F := Ideal)) W (Proc.devRef .tc main_v5) = val_main_v5 (F := Ideal) e := by
  after_results_simp
  after_results_rest
  rw [h_arg1]
  rfl
theorem s0a_v6 (h_arg1 : W (Proc.devRef .tc main_arg1) = e) :
    after (ops0a (F := Ideal)) W (Proc.devRef .tc main_v6) = val_main_v6 (F := Ideal) e := by
  after_results_simp
  after_results_rest
  rw [h_arg1]
  rfl
theorem s0a_v12 (h_arg1 : W (Proc.devRef .tc main_arg1) = e) :
    after (ops0a (F := Ideal)) W (Proc.devRef .tc main_v12) = val_main_v12 (F := Ideal) e := by
  after_results_simp
  after_results_rest
  rw [h_arg1]
  rfl
theorem s0a_v13 (h_arg1 : W (Proc.devRef .tc main_arg1) = e) :
    after (ops0a (F := Ideal)) W (Proc.devRef .tc main_v13) = val_main_v13 (F := Ideal) e := by
  after_results_simp
  after_results_rest
  rw [h_arg1]
  rfl
theorem s0a_cst_2  :
    after (ops0a (F := Ideal)) W (Proc.devRef .tc main_cst_2) = val_main_cst_2 (F := Ideal) := by
  after_results_simp
  after_results_rest
  rfl
theorem s0a_arg0 : after (ops0a (F := Ideal)) W (Proc.devRef .tc main_arg0) = W (Proc.devRef .tc main_arg0) := by after_results_simp
theorem s0a_arg2 : after (ops0a (F := Ideal)) W (Proc.devRef .tc main_arg2) = W (Proc.devRef .tc main_arg2) := by after_results_simp
theorem s0a_arg3 : after (ops0a (F := Ideal)) W (Proc.devRef .tc main_arg3) = W (Proc.devRef .tc main_arg3) := by after_results_simp
theorem s0a_arg4 : after (ops0a (F := Ideal)) W (Proc.devRef .tc main_arg4) = W (Proc.devRef .tc main_arg4) := by after_results_simp
theorem s0a_arg5 : after (ops0a (F := Ideal)) W (Proc.devRef .tc main_arg5) = W (Proc.devRef .tc main_arg5) := by after_results_simp

/-! ## Stretch 0b: the selection of the inverse root where the degree is positive (an outlined function) -/

/-- Its operations. -/
abbrev ops0b : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

theorem s0b_v14 (h_v12 : W (Proc.devRef .tc main_v12) = val_main_v12 (F := Ideal) e) (h_v13 : W (Proc.devRef .tc main_v13) = val_main_v13 (F := Ideal) e) (h_cst_2 : W (Proc.devRef .tc main_cst_2) = val_main_cst_2 (F := Ideal)) :
    after (ops0b (F := Ideal)) W (Proc.devRef .tc main_v14) = val_main_v14 (F := Ideal) e := by
  after_results_simp
  after_results_rest
  try simp only [HostPieces.ofBuf_toBuf]
  rw [TRef.ofBuf_eq (TRef.of (T := ⟨S100000, .i1⟩) main_v12) (heq_of_eq h_v12),
    TRef.ofBuf_eq (TRef.of (T := ⟨S100000, .f32⟩) main_v13) (heq_of_eq h_v13),
    TRef.ofBuf_eq (TRef.of (T := ⟨S_, .f32⟩) main_cst_2) (heq_of_eq h_cst_2)]
  refine eq_of_heq ((TRef.toBuf_heq _ _).trans (heq_of_eq ?_))
  rfl
theorem s0b_v1 : after (ops0b (F := Ideal)) W (Proc.devRef .tc main_v1) = W (Proc.devRef .tc main_v1) := by after_results_simp
theorem s0b_v3 : after (ops0b (F := Ideal)) W (Proc.devRef .tc main_v3) = W (Proc.devRef .tc main_v3) := by after_results_simp
theorem s0b_v5 : after (ops0b (F := Ideal)) W (Proc.devRef .tc main_v5) = W (Proc.devRef .tc main_v5) := by after_results_simp
theorem s0b_v6 : after (ops0b (F := Ideal)) W (Proc.devRef .tc main_v6) = W (Proc.devRef .tc main_v6) := by after_results_simp
theorem s0b_arg0 : after (ops0b (F := Ideal)) W (Proc.devRef .tc main_arg0) = W (Proc.devRef .tc main_arg0) := by after_results_simp
theorem s0b_arg2 : after (ops0b (F := Ideal)) W (Proc.devRef .tc main_arg2) = W (Proc.devRef .tc main_arg2) := by after_results_simp
theorem s0b_arg3 : after (ops0b (F := Ideal)) W (Proc.devRef .tc main_arg3) = W (Proc.devRef .tc main_arg3) := by after_results_simp
theorem s0b_arg4 : after (ops0b (F := Ideal)) W (Proc.devRef .tc main_arg4) = W (Proc.devRef .tc main_arg4) := by after_results_simp
theorem s0b_arg5 : after (ops0b (F := Ideal)) W (Proc.devRef .tc main_arg5) = W (Proc.devRef .tc main_arg5) := by after_results_simp

/-! ## Stretch 0c: the weights of the edge ends -/

/-- Its operations. -/
abbrev ops0c : List (HloOp τ sig (Elt F)) :=
  [ nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v5 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v5 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v5 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)) ]

theorem s0c_v29 (h_v14 : W (Proc.devRef .tc main_v14) = val_main_v14 (F := Ideal) e) (h_v5 : W (Proc.devRef .tc main_v5) = val_main_v5 (F := Ideal) e) (h_v6 : W (Proc.devRef .tc main_v6) = val_main_v6 (F := Ideal) e) :
    after (ops0c (F := Ideal)) W (Proc.devRef .tc main_v29) = val_main_v29 (F := Ideal) e := by
  after_results_simp
  after_results_rest
  rw [h_v14, h_v5, h_v6]
  rfl
theorem s0c_v1 : after (ops0c (F := Ideal)) W (Proc.devRef .tc main_v1) = W (Proc.devRef .tc main_v1) := by after_results_simp
theorem s0c_v3 : after (ops0c (F := Ideal)) W (Proc.devRef .tc main_v3) = W (Proc.devRef .tc main_v3) := by after_results_simp
theorem s0c_v5 : after (ops0c (F := Ideal)) W (Proc.devRef .tc main_v5) = W (Proc.devRef .tc main_v5) := by after_results_simp
theorem s0c_v6 : after (ops0c (F := Ideal)) W (Proc.devRef .tc main_v6) = W (Proc.devRef .tc main_v6) := by after_results_simp
theorem s0c_arg0 : after (ops0c (F := Ideal)) W (Proc.devRef .tc main_arg0) = W (Proc.devRef .tc main_arg0) := by after_results_simp
theorem s0c_arg2 : after (ops0c (F := Ideal)) W (Proc.devRef .tc main_arg2) = W (Proc.devRef .tc main_arg2) := by after_results_simp
theorem s0c_arg3 : after (ops0c (F := Ideal)) W (Proc.devRef .tc main_arg3) = W (Proc.devRef .tc main_arg3) := by after_results_simp
theorem s0c_arg4 : after (ops0c (F := Ideal)) W (Proc.devRef .tc main_arg4) = W (Proc.devRef .tc main_arg4) := by after_results_simp
theorem s0c_arg5 : after (ops0c (F := Ideal)) W (Proc.devRef .tc main_arg5) = W (Proc.devRef .tc main_arg5) := by after_results_simp

end Cert.ReferenceIdeal.RunValue

end
-- ==== Proof.RefS1.lean ====
/-
  The reference's line of host operations, second part: the first layer.

  Two stretches: the dense layer, the aggregation and the bias; then the outlined rectifier. Read from an arbitrary
  valuation, as in the first part.
-/
import proofs.«109896_j62998580298292_1_alg».proof.Proof.RefRead
import proofs.«109896_j62998580298292_1_alg».proof.Proof.LibHostPieces
import proofs.«109896_j62998580298292_1_alg».proof.Proof.LibResultsRest
import proofs.«109896_j62998580298292_1_alg».proof.Proof.LibTypedRefs

set_option maxRecDepth 16384

noncomputable section

namespace Cert.ReferenceIdeal.RunValue

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (W : Valuation τ sig (Elt Ideal))
variable (x : (⟨S100000x512, .f32⟩ : BufTy).Contents (Elt Ideal)) (e : (⟨S2x3200000, .i32⟩ : BufTy).Contents (Elt Ideal))
  (w1 : (⟨S512x16, .f32⟩ : BufTy).Contents (Elt Ideal)) (b1 : (⟨S16, .f32⟩ : BufTy).Contents (Elt Ideal))
  (w2 : (⟨S16x16, .f32⟩ : BufTy).Contents (Elt Ideal)) (b2 : (⟨S16, .f32⟩ : BufTy).Contents (Elt Ideal))

/-! ## Stretch 1a: the first layer up to its bias -/

/-- Its operations. -/
abbrev ops1a : List (HloOp τ sig (Elt F)) :=
  [ binary main_arg0 main_arg2 main_v30 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v5 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v5 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v5 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)) ]

theorem s1a_v46 (h_arg0 : W (Proc.devRef .tc main_arg0) = x) (h_arg2 : W (Proc.devRef .tc main_arg2) = w1) (h_arg3 : W (Proc.devRef .tc main_arg3) = b1) (h_v5 : W (Proc.devRef .tc main_v5) = val_main_v5 (F := Ideal) e) (h_v6 : W (Proc.devRef .tc main_v6) = val_main_v6 (F := Ideal) e) (h_v29 : W (Proc.devRef .tc main_v29) = val_main_v29 (F := Ideal) e) :
    after (ops1a (F := Ideal)) W (Proc.devRef .tc main_v46) = val_main_v46 (F := Ideal) x e w1 b1 := by
  after_results_simp
  after_results_rest
  rw [h_arg0, h_arg2, h_arg3, h_v5, h_v6, h_v29]
  rfl
theorem s1a_v1 : after (ops1a (F := Ideal)) W (Proc.devRef .tc main_v1) = W (Proc.devRef .tc main_v1) := by after_results_simp
theorem s1a_v3 : after (ops1a (F := Ideal)) W (Proc.devRef .tc main_v3) = W (Proc.devRef .tc main_v3) := by after_results_simp
theorem s1a_arg4 : after (ops1a (F := Ideal)) W (Proc.devRef .tc main_arg4) = W (Proc.devRef .tc main_arg4) := by after_results_simp
theorem s1a_arg5 : after (ops1a (F := Ideal)) W (Proc.devRef .tc main_arg5) = W (Proc.devRef .tc main_arg5) := by after_results_simp

/-! ## Stretch 1b: the rectifier (an outlined function) -/

/-- Its operations. -/
abbrev ops1b : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf ]

theorem s1b_v47 (h_v46 : W (Proc.devRef .tc main_v46) = val_main_v46 (F := Ideal) x e w1 b1) :
    after (ops1b (F := Ideal)) W (Proc.devRef .tc main_v47) = val_main_v47 (F := Ideal) x e w1 b1 := by
  after_results_simp
  after_results_rest
  try simp only [HostPieces.ofBuf_toBuf]
  rw [TRef.ofBuf_eq (TRef.of (T := ⟨S100000x16, .f32⟩) main_v46) (heq_of_eq h_v46)]
  refine eq_of_heq ((TRef.toBuf_heq _ _).trans (heq_of_eq ?_))
  rfl
theorem s1b_v1 : after (ops1b (F := Ideal)) W (Proc.devRef .tc main_v1) = W (Proc.devRef .tc main_v1) := by after_results_simp
theorem s1b_v3 : after (ops1b (F := Ideal)) W (Proc.devRef .tc main_v3) = W (Proc.devRef .tc main_v3) := by after_results_simp
theorem s1b_arg4 : after (ops1b (F := Ideal)) W (Proc.devRef .tc main_arg4) = W (Proc.devRef .tc main_arg4) := by after_results_simp
theorem s1b_arg5 : after (ops1b (F := Ideal)) W (Proc.devRef .tc main_arg5) = W (Proc.devRef .tc main_arg5) := by after_results_simp

end Cert.ReferenceIdeal.RunValue

end
-- ==== Proof.RefS2.lean ====
/-
  The reference's line of host operations, third part: the edge ends' sources, targets and weights, computed again.

  The same three stretches as the first part, over the second layer's buffers.
-/
import proofs.«109896_j62998580298292_1_alg».proof.Proof.RefRead
import proofs.«109896_j62998580298292_1_alg».proof.Proof.LibHostPieces
import proofs.«109896_j62998580298292_1_alg».proof.Proof.LibResultsRest
import proofs.«109896_j62998580298292_1_alg».proof.Proof.LibTypedRefs

set_option maxRecDepth 16384

noncomputable section

namespace Cert.ReferenceIdeal.RunValue

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (W : Valuation τ sig (Elt Ideal))
variable (x : (⟨S100000x512, .f32⟩ : BufTy).Contents (Elt Ideal)) (e : (⟨S2x3200000, .i32⟩ : BufTy).Contents (Elt Ideal))
  (w1 : (⟨S512x16, .f32⟩ : BufTy).Contents (Elt Ideal)) (b1 : (⟨S16, .f32⟩ : BufTy).Contents (Elt Ideal))
  (w2 : (⟨S16x16, .f32⟩ : BufTy).Contents (Elt Ideal)) (b2 : (⟨S16, .f32⟩ : BufTy).Contents (Elt Ideal))

/-! ## Stretch 2a: the edge ends again and the degrees' comparison and inverse root -/

/-- Its operations. -/
abbrev ops2a : List (HloOp τ sig (Elt F)) :=
  [ nullary main_v48 (iotaInDim S100000 32 0),
    binary main_v1 main_v48 main_v49 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v48 main_v50 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_9 (constant S_ .f32 0x3F800000#32),
    unary main_cst_9 main_v51 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v52 (broadcastInDim S100000 ![] bcast_S_S100000 : (⟨S_, .f32⟩ : BufTy).Contents (Elt F) → (⟨S100000, .f32⟩ : BufTy).Contents (Elt F)),
    unary main_v50 main_v53 (broadcastInDim S3300000x1 ![0] bcast_S3300000_S3300000x1_0 : (⟨S3300000, .i32⟩ : BufTy).Contents (Elt F) → (⟨S3300000x1, .i32⟩ : BufTy).Contents (Elt F)),
    ternary main_v52 main_v53 main_v51 main_v54 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v55 (broadcastInDim S100000 ![] bcast_S_S100000 : (⟨S_, .f32⟩ : BufTy).Contents (Elt F) → (⟨S100000, .f32⟩ : BufTy).Contents (Elt F)),
    binary main_v54 main_v55 main_v56 (cmpf .ogt : (⟨S100000, .f32⟩ : BufTy).Contents (Elt F) → (⟨S100000, .f32⟩ : BufTy).Contents (Elt F) → (⟨S100000, .i1⟩ : BufTy).Contents (Elt F)),
    unary main_v54 main_v57 (Host.rsqrt : (⟨S100000, .f32⟩ : BufTy).Contents (Elt F) → (⟨S100000, .f32⟩ : BufTy).Contents (Elt F)),
    nullary main_cst_12 (constant S_ .f32 0x00000000#32) ]

theorem s2a_v49 (h_v1 : W (Proc.devRef .tc main_v1) = val_main_v1 (F := Ideal) e) :
    after (ops2a (F := Ideal)) W (Proc.devRef .tc main_v49) = val_main_v49 (F := Ideal) e := by
  after_results_simp
  after_results_rest
  rw [h_v1]
  rfl
theorem s2a_v50 (h_v3 : W (Proc.devRef .tc main_v3) = val_main_v3 (F := Ideal) e) :
    after (ops2a (F := Ideal)) W (Proc.devRef .tc main_v50) = val_main_v50 (F := Ideal) e := by
  after_results_simp
  after_results_rest
  rw [h_v3]
  rfl
theorem s2a_v56 (h_v3 : W (Proc.devRef .tc main_v3) = val_main_v3 (F := Ideal) e) :
    after (ops2a (F := Ideal)) W (Proc.devRef .tc main_v56) = val_main_v56 (F := Ideal) e := by
  after_results_simp
  after_results_rest
  rw [h_v3]
  rfl
theorem s2a_v57 (h_v3 : W (Proc.devRef .tc main_v3) = val_main_v3 (F := Ideal) e) :
    after (ops2a (F := Ideal)) W (Proc.devRef .tc main_v57) = val_main_v57 (F := Ideal) e := by
  after_results_simp
  after_results_rest
  rw [h_v3]
  rfl
theorem s2a_cst_12  :
    after (ops2a (F := Ideal)) W (Proc.devRef .tc main_cst_12) = val_main_cst_12 (F := Ideal) := by
  after_results_simp
  after_results_rest
  rfl
theorem s2a_v47 : after (ops2a (F := Ideal)) W (Proc.devRef .tc main_v47) = W (Proc.devRef .tc main_v47) := by after_results_simp
theorem s2a_arg4 : after (ops2a (F := Ideal)) W (Proc.devRef .tc main_arg4) = W (Proc.devRef .tc main_arg4) := by after_results_simp
theorem s2a_arg5 : after (ops2a (F := Ideal)) W (Proc.devRef .tc main_arg5) = W (Proc.devRef .tc main_arg5) := by after_results_simp

/-! ## Stretch 2b: the selection again (an outlined function) -/

/-- Its operations. -/
abbrev ops2b : List (HloOp τ sig (Elt F)) :=
  [ TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v56) (TRef.of (T := ⟨S100000, .f32⟩) main_v57) (TRef.of (T := ⟨S100000, .f32⟩) main_call2_v1) (TRef.of (T := ⟨S100000, .f32⟩) main_v58) select ]

theorem s2b_v58 (h_v56 : W (Proc.devRef .tc main_v56) = val_main_v56 (F := Ideal) e) (h_v57 : W (Proc.devRef .tc main_v57) = val_main_v57 (F := Ideal) e) (h_cst_12 : W (Proc.devRef .tc main_cst_12) = val_main_cst_12 (F := Ideal)) :
    after (ops2b (F := Ideal)) W (Proc.devRef .tc main_v58) = val_main_v58 (F := Ideal) e := by
  after_results_simp
  after_results_rest
  try simp only [HostPieces.ofBuf_toBuf]
  rw [TRef.ofBuf_eq (TRef.of (T := ⟨S100000, .i1⟩) main_v56) (heq_of_eq h_v56),
    TRef.ofBuf_eq (TRef.of (T := ⟨S100000, .f32⟩) main_v57) (heq_of_eq h_v57),
    TRef.ofBuf_eq (TRef.of (T := ⟨S_, .f32⟩) main_cst_12) (heq_of_eq h_cst_12)]
  refine eq_of_heq ((TRef.toBuf_heq _ _).trans (heq_of_eq ?_))
  rfl
theorem s2b_v47 : after (ops2b (F := Ideal)) W (Proc.devRef .tc main_v47) = W (Proc.devRef .tc main_v47) := by after_results_simp
theorem s2b_v49 : after (ops2b (F := Ideal)) W (Proc.devRef .tc main_v49) = W (Proc.devRef .tc main_v49) := by after_results_simp
theorem s2b_v50 : after (ops2b (F := Ideal)) W (Proc.devRef .tc main_v50) = W (Proc.devRef .tc main_v50) := by after_results_simp
theorem s2b_arg4 : after (ops2b (F := Ideal)) W (Proc.devRef .tc main_arg4) = W (Proc.devRef .tc main_arg4) := by after_results_simp
theorem s2b_arg5 : after (ops2b (F := Ideal)) W (Proc.devRef .tc main_arg5) = W (Proc.devRef .tc main_arg5) := by after_results_simp

/-! ## Stretch 2c: the weights again -/

/-- Its operations. -/
abbrev ops2c : List (HloOp τ sig (Elt F)) :=
  [ nullary main_c_13 (constantI S_ 32 0#32),
    unary main_c_13 main_v59 (broadcastInDim S3300000 ![] bcast_S_S3300000 : (⟨S_, .i32⟩ : BufTy).Contents (Elt F) → (⟨S3300000, .i32⟩ : BufTy).Contents (Elt F)),
    binary main_v49 main_v59 main_v60 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v61 (broadcastInDim S3300000 ![] bcast_S_S3300000 : (⟨S_, .i32⟩ : BufTy).Contents (Elt F) → (⟨S3300000, .i32⟩ : BufTy).Contents (Elt F)),
    binary main_v49 main_v61 main_v62 (addi : (⟨S3300000, .i32⟩ : BufTy).Contents (Elt F) → (⟨S3300000, .i32⟩ : BufTy).Contents (Elt F) → (⟨S3300000, .i32⟩ : BufTy).Contents (Elt F)),
    ternary main_v60 main_v62 main_v49 main_v63 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v63 main_v64 (broadcastInDim S3300000x1 ![0] bcast_S3300000_S3300000x1_0 : (⟨S3300000, .i32⟩ : BufTy).Contents (Elt F) → (⟨S3300000x1, .i32⟩ : BufTy).Contents (Elt F)),
    binary main_v58 main_v64 main_v65 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v66 (broadcastInDim S3300000 ![] bcast_S_S3300000 : (⟨S_, .i32⟩ : BufTy).Contents (Elt F) → (⟨S3300000, .i32⟩ : BufTy).Contents (Elt F)),
    binary main_v50 main_v66 main_v67 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v68 (broadcastInDim S3300000 ![] bcast_S_S3300000 : (⟨S_, .i32⟩ : BufTy).Contents (Elt F) → (⟨S3300000, .i32⟩ : BufTy).Contents (Elt F)),
    binary main_v50 main_v68 main_v69 (addi : (⟨S3300000, .i32⟩ : BufTy).Contents (Elt F) → (⟨S3300000, .i32⟩ : BufTy).Contents (Elt F) → (⟨S3300000, .i32⟩ : BufTy).Contents (Elt F)),
    ternary main_v67 main_v69 main_v50 main_v70 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v70 main_v71 (broadcastInDim S3300000x1 ![0] bcast_S3300000_S3300000x1_0 : (⟨S3300000, .i32⟩ : BufTy).Contents (Elt F) → (⟨S3300000x1, .i32⟩ : BufTy).Contents (Elt F)),
    binary main_v58 main_v71 main_v72 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v65 main_v72 main_v73 (mulf : (⟨S3300000, .f32⟩ : BufTy).Contents (Elt F) → (⟨S3300000, .f32⟩ : BufTy).Contents (Elt F) → (⟨S3300000, .f32⟩ : BufTy).Contents (Elt F)) ]

theorem s2c_v73 (h_v58 : W (Proc.devRef .tc main_v58) = val_main_v58 (F := Ideal) e) (h_v49 : W (Proc.devRef .tc main_v49) = val_main_v49 (F := Ideal) e) (h_v50 : W (Proc.devRef .tc main_v50) = val_main_v50 (F := Ideal) e) :
    after (ops2c (F := Ideal)) W (Proc.devRef .tc main_v73) = val_main_v73 (F := Ideal) e := by
  after_results_simp
  after_results_rest
  rw [h_v58, h_v49, h_v50]
  rfl
theorem s2c_v47 : after (ops2c (F := Ideal)) W (Proc.devRef .tc main_v47) = W (Proc.devRef .tc main_v47) := by after_results_simp
theorem s2c_v49 : after (ops2c (F := Ideal)) W (Proc.devRef .tc main_v49) = W (Proc.devRef .tc main_v49) := by after_results_simp
theorem s2c_v50 : after (ops2c (F := Ideal)) W (Proc.devRef .tc main_v50) = W (Proc.devRef .tc main_v50) := by after_results_simp
theorem s2c_arg4 : after (ops2c (F := Ideal)) W (Proc.devRef .tc main_arg4) = W (Proc.devRef .tc main_arg4) := by after_results_simp
theorem s2c_arg5 : after (ops2c (F := Ideal)) W (Proc.devRef .tc main_arg5) = W (Proc.devRef .tc main_arg5) := by after_results_simp

end Cert.ReferenceIdeal.RunValue

end
-- ==== Proof.RefS3.lean ====
/-
  The reference's line of host operations, fourth part: the second layer and the log-softmax.

  Two stretches: the dense layer, the aggregation and the bias; then the outlined log-softmax.
-/
import proofs.«109896_j62998580298292_1_alg».proof.Proof.RefRead
import proofs.«109896_j62998580298292_1_alg».proof.Proof.LibHostPieces
import proofs.«109896_j62998580298292_1_alg».proof.Proof.LibResultsRest
import proofs.«109896_j62998580298292_1_alg».proof.Proof.LibTypedRefs

set_option maxRecDepth 16384

noncomputable section

namespace Cert.ReferenceIdeal.RunValue

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (W : Valuation τ sig (Elt Ideal))
variable (x : (⟨S100000x512, .f32⟩ : BufTy).Contents (Elt Ideal)) (e : (⟨S2x3200000, .i32⟩ : BufTy).Contents (Elt Ideal))
  (w1 : (⟨S512x16, .f32⟩ : BufTy).Contents (Elt Ideal)) (b1 : (⟨S16, .f32⟩ : BufTy).Contents (Elt Ideal))
  (w2 : (⟨S16x16, .f32⟩ : BufTy).Contents (Elt Ideal)) (b2 : (⟨S16, .f32⟩ : BufTy).Contents (Elt Ideal))

/-! ## Stretch 3a: the second layer up to its bias -/

/-- Its operations. -/
abbrev ops3a : List (HloOp τ sig (Elt F)) :=
  [ binary main_v47 main_arg4 main_v74 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    nullary main_c_17 (constantI S_ 32 0#32),
    unary main_c_17 main_v75 (broadcastInDim S3300000 ![] bcast_S_S3300000 : (⟨S_, .i32⟩ : BufTy).Contents (Elt F) → (⟨S3300000, .i32⟩ : BufTy).Contents (Elt F)),
    binary main_v49 main_v75 main_v76 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v77 (broadcastInDim S3300000 ![] bcast_S_S3300000 : (⟨S_, .i32⟩ : BufTy).Contents (Elt F) → (⟨S3300000, .i32⟩ : BufTy).Contents (Elt F)),
    binary main_v49 main_v77 main_v78 (addi : (⟨S3300000, .i32⟩ : BufTy).Contents (Elt F) → (⟨S3300000, .i32⟩ : BufTy).Contents (Elt F) → (⟨S3300000, .i32⟩ : BufTy).Contents (Elt F)),
    ternary main_v76 main_v78 main_v49 main_v79 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v79 main_v80 (broadcastInDim S3300000x1 ![0] bcast_S3300000_S3300000x1_0 : (⟨S3300000, .i32⟩ : BufTy).Contents (Elt F) → (⟨S3300000x1, .i32⟩ : BufTy).Contents (Elt F)),
    binary main_v74 main_v80 main_v81 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v73 main_v82 (broadcastInDim S3300000x1 ![0] bcast_S3300000_S3300000x1_0 : (⟨S3300000, .f32⟩ : BufTy).Contents (Elt F) → (⟨S3300000x1, .f32⟩ : BufTy).Contents (Elt F)),
    unary main_v82 main_v83 (broadcastInDim S3300000x16 ![0, 1] bcast_S3300000x1_S3300000x16_0_1 : (⟨S3300000x1, .f32⟩ : BufTy).Contents (Elt F) → (⟨S3300000x16, .f32⟩ : BufTy).Contents (Elt F)),
    binary main_v81 main_v83 main_v84 (mulf : (⟨S3300000x16, .f32⟩ : BufTy).Contents (Elt F) → (⟨S3300000x16, .f32⟩ : BufTy).Contents (Elt F) → (⟨S3300000x16, .f32⟩ : BufTy).Contents (Elt F)),
    nullary main_cst_19 (constant S_ .f32 0x00000000#32),
    unary main_cst_19 main_v85 (broadcastInDim S100000x16 ![] bcast_S_S100000x16 : (⟨S_, .f32⟩ : BufTy).Contents (Elt F) → (⟨S100000x16, .f32⟩ : BufTy).Contents (Elt F)),
    unary main_v50 main_v86 (broadcastInDim S3300000x1 ![0] bcast_S3300000_S3300000x1_0 : (⟨S3300000, .i32⟩ : BufTy).Contents (Elt F) → (⟨S3300000x1, .i32⟩ : BufTy).Contents (Elt F)),
    ternary main_v85 main_v86 main_v84 main_v87 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg5 main_v88 (broadcastInDim S1x16 ![1] bcast_S16_S1x16_1 : (⟨S16, .f32⟩ : BufTy).Contents (Elt F) → (⟨S1x16, .f32⟩ : BufTy).Contents (Elt F)),
    unary main_v88 main_v89 (broadcastInDim S100000x16 ![0, 1] bcast_S1x16_S100000x16_0_1 : (⟨S1x16, .f32⟩ : BufTy).Contents (Elt F) → (⟨S100000x16, .f32⟩ : BufTy).Contents (Elt F)),
    binary main_v87 main_v89 main_v90 (addf : (⟨S100000x16, .f32⟩ : BufTy).Contents (Elt F) → (⟨S100000x16, .f32⟩ : BufTy).Contents (Elt F) → (⟨S100000x16, .f32⟩ : BufTy).Contents (Elt F)) ]

theorem s3a_v90 (h_v47 : W (Proc.devRef .tc main_v47) = val_main_v47 (F := Ideal) x e w1 b1) (h_arg4 : W (Proc.devRef .tc main_arg4) = w2) (h_arg5 : W (Proc.devRef .tc main_arg5) = b2) (h_v49 : W (Proc.devRef .tc main_v49) = val_main_v49 (F := Ideal) e) (h_v50 : W (Proc.devRef .tc main_v50) = val_main_v50 (F := Ideal) e) (h_v73 : W (Proc.devRef .tc main_v73) = val_main_v73 (F := Ideal) e) :
    after (ops3a (F := Ideal)) W (Proc.devRef .tc main_v90) = val_main_v90 (F := Ideal) x e w1 b1 w2 b2 := by
  after_results_simp
  after_results_rest
  rw [h_v47, h_arg4, h_arg5, h_v49, h_v50, h_v73]
  rfl

/-! ## Stretch 3b: the log-softmax (an outlined function) -/

/-- Its operations. -/
abbrev ops3b : List (HloOp τ sig (Elt F)) :=
  [ TRef.nullary (TRef.of (T := ⟨S_, .f32⟩) main_call3_cst) (constant S_ .f32 0xFF800000#32),
    TRef.binary (TRef.of (T := ⟨S100000x16, .f32⟩) main_v90) (TRef.of (T := ⟨S_, .f32⟩) main_call3_cst) (TRef.of (T := ⟨S100000, .f32⟩) main_call3_v0) (fun x v => Host.reduce FloatOps.maximumf x v reducesTo_S100000x16_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x16, .f32⟩) main_call3_v4) (broadcastInDim S100000x16 ![0, 1] bcast_S100000x1_S100000x16_0_1),
    TRef.binary (TRef.of (T := ⟨S100000x16, .f32⟩) main_v90) (TRef.of (T := ⟨S100000x16, .f32⟩) main_call3_v4) (TRef.of (T := ⟨S100000x16, .f32⟩) main_call3_v5) subf,
    TRef.unary (TRef.of (T := ⟨S100000x16, .f32⟩) main_call3_v5) (TRef.of (T := ⟨S100000x16, .f32⟩) main_call3_v6) Host.exp,
    TRef.nullary (TRef.of (T := ⟨S_, .f32⟩) main_call3_cst_1) (constant S_ .f32 0x00000000#32),
    TRef.binary (TRef.of (T := ⟨S100000x16, .f32⟩) main_call3_v6) (TRef.of (T := ⟨S_, .f32⟩) main_call3_cst_1) (TRef.of (T := ⟨S100000, .f32⟩) main_call3_v7) (fun x v => Host.reduceAdd x v reducesTo_S100000x16_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x16, .f32⟩) main_call3_v10) (broadcastInDim S100000x16 ![0, 1] bcast_S100000x1_S100000x16_0_1),
    TRef.binary (TRef.of (T := ⟨S100000x16, .f32⟩) main_call3_v5) (TRef.of (T := ⟨S100000x16, .f32⟩) main_call3_v10) (TRef.of (T := ⟨S100000x16, .f32⟩) main_v91) subf ]

theorem s3b_v91 (h_v90 : W (Proc.devRef .tc main_v90) = val_main_v90 (F := Ideal) x e w1 b1 w2 b2) :
    after (ops3b (F := Ideal)) W (Proc.devRef .tc main_v91) = val_main_v91 (F := Ideal) x e w1 b1 w2 b2 := by
  after_results_simp
  after_results_rest
  try simp only [HostPieces.ofBuf_toBuf]
  rw [TRef.ofBuf_eq (TRef.of (T := ⟨S100000x16, .f32⟩) main_v90) (heq_of_eq h_v90)]
  refine eq_of_heq ((TRef.toBuf_heq _ _).trans (heq_of_eq ?_))
  rfl

end Cert.ReferenceIdeal.RunValue

end
-- ==== Proof.RefValue.lean ====
/-
  The reference program's run, read stretch by stretch.

  The reference's @main is a line of 134 host operations. What a buffer holds after the line is a fold over it; read
  in one step, the result's term is too deep to compare, so the line is cut into ten stretches — at the three places
  where it computes the edge ends' weights, before and after the outlined selection; at the two layers, before the
  outlined rectifier and the outlined log-softmax — each read, in its own module, from an arbitrary valuation of the
  buffers at its start. Cutting at the outlined functions keeps the terms that cross a typed reference's transport of
  contents small: the stages there are names, not their expansions. Chaining the ten gives the result buffer at the
  last stage of the arguments.
-/
import proofs.«109896_j62998580298292_1_alg».proof.Proof.RefS0
import proofs.«109896_j62998580298292_1_alg».proof.Proof.RefS1
import proofs.«109896_j62998580298292_1_alg».proof.Proof.RefS2
import proofs.«109896_j62998580298292_1_alg».proof.Proof.RefS3

set_option maxRecDepth 16384

noncomputable section

namespace Cert.ReferenceIdeal.RunValue

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

variable (W : Valuation τ sig (Elt Ideal))
variable (x : (⟨S100000x512, .f32⟩ : BufTy).Contents (Elt Ideal)) (e : (⟨S2x3200000, .i32⟩ : BufTy).Contents (Elt Ideal))
  (w1 : (⟨S512x16, .f32⟩ : BufTy).Contents (Elt Ideal)) (b1 : (⟨S16, .f32⟩ : BufTy).Contents (Elt Ideal))
  (w2 : (⟨S16x16, .f32⟩ : BufTy).Contents (Elt Ideal)) (b2 : (⟨S16, .f32⟩ : BufTy).Contents (Elt Ideal))

/-! ## The line -/

/-- The line is the ten stretches in order. -/
theorem ops_eq : (ops : List (HloOp τ sig (Elt F)))
    = ops0a ++ (ops0b ++ (ops0c ++ (ops1a ++ (ops1b ++ (ops2a ++ (ops2b ++ (ops2c ++ (ops3a ++ ops3b)))))))) := rfl

/-- After the whole line the result buffer holds the last stage of the arguments. -/
theorem result_eq : after (ops (F := Ideal)) W (Proc.devRef .tc main_v91)
    = val_main_v91 (F := Ideal) (W (Proc.devRef .tc main_arg0)) (W (Proc.devRef .tc main_arg1)) (W (Proc.devRef .tc main_arg2))
        (W (Proc.devRef .tc main_arg3)) (W (Proc.devRef .tc main_arg4)) (W (Proc.devRef .tc main_arg5)) := by
  rw [ops_eq]
  simp only [HostPieces.after_append]
  have f_arg0 : W (Proc.devRef .tc main_arg0) = W (Proc.devRef .tc main_arg0) := rfl
  have f_arg1 : W (Proc.devRef .tc main_arg1) = W (Proc.devRef .tc main_arg1) := rfl
  have f_arg2 : W (Proc.devRef .tc main_arg2) = W (Proc.devRef .tc main_arg2) := rfl
  have f_arg3 : W (Proc.devRef .tc main_arg3) = W (Proc.devRef .tc main_arg3) := rfl
  have f_arg4 : W (Proc.devRef .tc main_arg4) = W (Proc.devRef .tc main_arg4) := rfl
  have f_arg5 : W (Proc.devRef .tc main_arg5) = W (Proc.devRef .tc main_arg5) := rfl
  have g_v1 := s0a_v1 (W := W) (e := W (Proc.devRef .tc main_arg1)) (h_arg1 := f_arg1)
  have g_v3 := s0a_v3 (W := W) (e := W (Proc.devRef .tc main_arg1)) (h_arg1 := f_arg1)
  have g_v5 := s0a_v5 (W := W) (e := W (Proc.devRef .tc main_arg1)) (h_arg1 := f_arg1)
  have g_v6 := s0a_v6 (W := W) (e := W (Proc.devRef .tc main_arg1)) (h_arg1 := f_arg1)
  have g_v12 := s0a_v12 (W := W) (e := W (Proc.devRef .tc main_arg1)) (h_arg1 := f_arg1)
  have g_v13 := s0a_v13 (W := W) (e := W (Proc.devRef .tc main_arg1)) (h_arg1 := f_arg1)
  have g_cst_2 := s0a_cst_2 (W := W)
  have g_arg0 := (s0a_arg0 (W := W)).trans f_arg0
  have g_arg2 := (s0a_arg2 (W := W)).trans f_arg2
  have g_arg3 := (s0a_arg3 (W := W)).trans f_arg3
  have g_arg4 := (s0a_arg4 (W := W)).trans f_arg4
  have g_arg5 := (s0a_arg5 (W := W)).trans f_arg5
  have f_v1 := g_v1
  have f_v3 := g_v3
  have f_v5 := g_v5
  have f_v6 := g_v6
  have f_v12 := g_v12
  have f_v13 := g_v13
  have f_cst_2 := g_cst_2
  have f_arg0 := g_arg0
  have f_arg2 := g_arg2
  have f_arg3 := g_arg3
  have f_arg4 := g_arg4
  have f_arg5 := g_arg5
  clear g_v1 g_v3 g_v5 g_v6 g_v12 g_v13 g_cst_2 g_arg0 g_arg2 g_arg3 g_arg4 g_arg5
  have g_v14 := s0b_v14 (W := (after (ops0a (F := Ideal)) W)) (e := W (Proc.devRef .tc main_arg1)) (h_v12 := f_v12) (h_v13 := f_v13) (h_cst_2 := f_cst_2)
  have g_v1 := (s0b_v1 (W := (after (ops0a (F := Ideal)) W))).trans f_v1
  have g_v3 := (s0b_v3 (W := (after (ops0a (F := Ideal)) W))).trans f_v3
  have g_v5 := (s0b_v5 (W := (after (ops0a (F := Ideal)) W))).trans f_v5
  have g_v6 := (s0b_v6 (W := (after (ops0a (F := Ideal)) W))).trans f_v6
  have g_arg0 := (s0b_arg0 (W := (after (ops0a (F := Ideal)) W))).trans f_arg0
  have g_arg2 := (s0b_arg2 (W := (after (ops0a (F := Ideal)) W))).trans f_arg2
  have g_arg3 := (s0b_arg3 (W := (after (ops0a (F := Ideal)) W))).trans f_arg3
  have g_arg4 := (s0b_arg4 (W := (after (ops0a (F := Ideal)) W))).trans f_arg4
  have g_arg5 := (s0b_arg5 (W := (after (ops0a (F := Ideal)) W))).trans f_arg5
  have f_v14 := g_v14
  have f_v1 := g_v1
  have f_v3 := g_v3
  have f_v5 := g_v5
  have f_v6 := g_v6
  have f_arg0 := g_arg0
  have f_arg2 := g_arg2
  have f_arg3 := g_arg3
  have f_arg4 := g_arg4
  have f_arg5 := g_arg5
  clear g_v14 g_v1 g_v3 g_v5 g_v6 g_arg0 g_arg2 g_arg3 g_arg4 g_arg5
  have g_v29 := s0c_v29 (W := (after (ops0b (F := Ideal)) (after (ops0a (F := Ideal)) W))) (e := W (Proc.devRef .tc main_arg1)) (h_v14 := f_v14) (h_v5 := f_v5) (h_v6 := f_v6)
  have g_v1 := (s0c_v1 (W := (after (ops0b (F := Ideal)) (after (ops0a (F := Ideal)) W)))).trans f_v1
  have g_v3 := (s0c_v3 (W := (after (ops0b (F := Ideal)) (after (ops0a (F := Ideal)) W)))).trans f_v3
  have g_v5 := (s0c_v5 (W := (after (ops0b (F := Ideal)) (after (ops0a (F := Ideal)) W)))).trans f_v5
  have g_v6 := (s0c_v6 (W := (after (ops0b (F := Ideal)) (after (ops0a (F := Ideal)) W)))).trans f_v6
  have g_arg0 := (s0c_arg0 (W := (after (ops0b (F := Ideal)) (after (ops0a (F := Ideal)) W)))).trans f_arg0
  have g_arg2 := (s0c_arg2 (W := (after (ops0b (F := Ideal)) (after (ops0a (F := Ideal)) W)))).trans f_arg2
  have g_arg3 := (s0c_arg3 (W := (after (ops0b (F := Ideal)) (after (ops0a (F := Ideal)) W)))).trans f_arg3
  have g_arg4 := (s0c_arg4 (W := (after (ops0b (F := Ideal)) (after (ops0a (F := Ideal)) W)))).trans f_arg4
  have g_arg5 := (s0c_arg5 (W := (after (ops0b (F := Ideal)) (after (ops0a (F := Ideal)) W)))).trans f_arg5
  have f_v29 := g_v29
  have f_v1 := g_v1
  have f_v3 := g_v3
  have f_v5 := g_v5
  have f_v6 := g_v6
  have f_arg0 := g_arg0
  have f_arg2 := g_arg2
  have f_arg3 := g_arg3
  have f_arg4 := g_arg4
  have f_arg5 := g_arg5
  clear g_v29 g_v1 g_v3 g_v5 g_v6 g_arg0 g_arg2 g_arg3 g_arg4 g_arg5
  have g_v46 := s1a_v46 (W := (after (ops0c (F := Ideal)) (after (ops0b (F := Ideal)) (after (ops0a (F := Ideal)) W)))) (x := W (Proc.devRef .tc main_arg0)) (e := W (Proc.devRef .tc main_arg1)) (w1 := W (Proc.devRef .tc main_arg2)) (b1 := W (Proc.devRef .tc main_arg3)) (h_arg0 := f_arg0) (h_arg2 := f_arg2) (h_arg3 := f_arg3) (h_v5 := f_v5) (h_v6 := f_v6) (h_v29 := f_v29)
  have g_v1 := (s1a_v1 (W := (after (ops0c (F := Ideal)) (after (ops0b (F := Ideal)) (after (ops0a (F := Ideal)) W))))).trans f_v1
  have g_v3 := (s1a_v3 (W := (after (ops0c (F := Ideal)) (after (ops0b (F := Ideal)) (after (ops0a (F := Ideal)) W))))).trans f_v3
  have g_arg4 := (s1a_arg4 (W := (after (ops0c (F := Ideal)) (after (ops0b (F := Ideal)) (after (ops0a (F := Ideal)) W))))).trans f_arg4
  have g_arg5 := (s1a_arg5 (W := (after (ops0c (F := Ideal)) (after (ops0b (F := Ideal)) (after (ops0a (F := Ideal)) W))))).trans f_arg5
  have f_v46 := g_v46
  have f_v1 := g_v1
  have f_v3 := g_v3
  have f_arg4 := g_arg4
  have f_arg5 := g_arg5
  clear g_v46 g_v1 g_v3 g_arg4 g_arg5
  have g_v47 := s1b_v47 (W := (after (ops1a (F := Ideal)) (after (ops0c (F := Ideal)) (after (ops0b (F := Ideal)) (after (ops0a (F := Ideal)) W))))) (x := W (Proc.devRef .tc main_arg0)) (e := W (Proc.devRef .tc main_arg1)) (w1 := W (Proc.devRef .tc main_arg2)) (b1 := W (Proc.devRef .tc main_arg3)) (h_v46 := f_v46)
  have g_v1 := (s1b_v1 (W := (after (ops1a (F := Ideal)) (after (ops0c (F := Ideal)) (after (ops0b (F := Ideal)) (after (ops0a (F := Ideal)) W)))))).trans f_v1
  have g_v3 := (s1b_v3 (W := (after (ops1a (F := Ideal)) (after (ops0c (F := Ideal)) (after (ops0b (F := Ideal)) (after (ops0a (F := Ideal)) W)))))).trans f_v3
  have g_arg4 := (s1b_arg4 (W := (after (ops1a (F := Ideal)) (after (ops0c (F := Ideal)) (after (ops0b (F := Ideal)) (after (ops0a (F := Ideal)) W)))))).trans f_arg4
  have g_arg5 := (s1b_arg5 (W := (after (ops1a (F := Ideal)) (after (ops0c (F := Ideal)) (after (ops0b (F := Ideal)) (after (ops0a (F := Ideal)) W)))))).trans f_arg5
  have f_v47 := g_v47
  have f_v1 := g_v1
  have f_v3 := g_v3
  have f_arg4 := g_arg4
  have f_arg5 := g_arg5
  clear g_v47 g_v1 g_v3 g_arg4 g_arg5
  have g_v49 := s2a_v49 (W := (after (ops1b (F := Ideal)) (after (ops1a (F := Ideal)) (after (ops0c (F := Ideal)) (after (ops0b (F := Ideal)) (after (ops0a (F := Ideal)) W)))))) (e := W (Proc.devRef .tc main_arg1)) (h_v1 := f_v1)
  have g_v50 := s2a_v50 (W := (after (ops1b (F := Ideal)) (after (ops1a (F := Ideal)) (after (ops0c (F := Ideal)) (after (ops0b (F := Ideal)) (after (ops0a (F := Ideal)) W)))))) (e := W (Proc.devRef .tc main_arg1)) (h_v3 := f_v3)
  have g_v56 := s2a_v56 (W := (after (ops1b (F := Ideal)) (after (ops1a (F := Ideal)) (after (ops0c (F := Ideal)) (after (ops0b (F := Ideal)) (after (ops0a (F := Ideal)) W)))))) (e := W (Proc.devRef .tc main_arg1)) (h_v3 := f_v3)
  have g_v57 := s2a_v57 (W := (after (ops1b (F := Ideal)) (after (ops1a (F := Ideal)) (after (ops0c (F := Ideal)) (after (ops0b (F := Ideal)) (after (ops0a (F := Ideal)) W)))))) (e := W (Proc.devRef .tc main_arg1)) (h_v3 := f_v3)
  have g_cst_12 := s2a_cst_12 (W := (after (ops1b (F := Ideal)) (after (ops1a (F := Ideal)) (after (ops0c (F := Ideal)) (after (ops0b (F := Ideal)) (after (ops0a (F := Ideal)) W))))))
  have g_v47 := (s2a_v47 (W := (after (ops1b (F := Ideal)) (after (ops1a (F := Ideal)) (after (ops0c (F := Ideal)) (after (ops0b (F := Ideal)) (after (ops0a (F := Ideal)) W))))))).trans f_v47
  have g_arg4 := (s2a_arg4 (W := (after (ops1b (F := Ideal)) (after (ops1a (F := Ideal)) (after (ops0c (F := Ideal)) (after (ops0b (F := Ideal)) (after (ops0a (F := Ideal)) W))))))).trans f_arg4
  have g_arg5 := (s2a_arg5 (W := (after (ops1b (F := Ideal)) (after (ops1a (F := Ideal)) (after (ops0c (F := Ideal)) (after (ops0b (F := Ideal)) (after (ops0a (F := Ideal)) W))))))).trans f_arg5
  have f_v49 := g_v49
  have f_v50 := g_v50
  have f_v56 := g_v56
  have f_v57 := g_v57
  have f_cst_12 := g_cst_12
  have f_v47 := g_v47
  have f_arg4 := g_arg4
  have f_arg5 := g_arg5
  clear g_v49 g_v50 g_v56 g_v57 g_cst_12 g_v47 g_arg4 g_arg5
  have g_v58 := s2b_v58 (W := (after (ops2a (F := Ideal)) (after (ops1b (F := Ideal)) (after (ops1a (F := Ideal)) (after (ops0c (F := Ideal)) (after (ops0b (F := Ideal)) (after (ops0a (F := Ideal)) W))))))) (e := W (Proc.devRef .tc main_arg1)) (h_v56 := f_v56) (h_v57 := f_v57) (h_cst_12 := f_cst_12)
  have g_v47 := (s2b_v47 (W := (after (ops2a (F := Ideal)) (after (ops1b (F := Ideal)) (after (ops1a (F := Ideal)) (after (ops0c (F := Ideal)) (after (ops0b (F := Ideal)) (after (ops0a (F := Ideal)) W)))))))).trans f_v47
  have g_v49 := (s2b_v49 (W := (after (ops2a (F := Ideal)) (after (ops1b (F := Ideal)) (after (ops1a (F := Ideal)) (after (ops0c (F := Ideal)) (after (ops0b (F := Ideal)) (after (ops0a (F := Ideal)) W)))))))).trans f_v49
  have g_v50 := (s2b_v50 (W := (after (ops2a (F := Ideal)) (after (ops1b (F := Ideal)) (after (ops1a (F := Ideal)) (after (ops0c (F := Ideal)) (after (ops0b (F := Ideal)) (after (ops0a (F := Ideal)) W)))))))).trans f_v50
  have g_arg4 := (s2b_arg4 (W := (after (ops2a (F := Ideal)) (after (ops1b (F := Ideal)) (after (ops1a (F := Ideal)) (after (ops0c (F := Ideal)) (after (ops0b (F := Ideal)) (after (ops0a (F := Ideal)) W)))))))).trans f_arg4
  have g_arg5 := (s2b_arg5 (W := (after (ops2a (F := Ideal)) (after (ops1b (F := Ideal)) (after (ops1a (F := Ideal)) (after (ops0c (F := Ideal)) (after (ops0b (F := Ideal)) (after (ops0a (F := Ideal)) W)))))))).trans f_arg5
  have f_v58 := g_v58
  have f_v47 := g_v47
  have f_v49 := g_v49
  have f_v50 := g_v50
  have f_arg4 := g_arg4
  have f_arg5 := g_arg5
  clear g_v58 g_v47 g_v49 g_v50 g_arg4 g_arg5
  have g_v73 := s2c_v73 (W := (after (ops2b (F := Ideal)) (after (ops2a (F := Ideal)) (after (ops1b (F := Ideal)) (after (ops1a (F := Ideal)) (after (ops0c (F := Ideal)) (after (ops0b (F := Ideal)) (after (ops0a (F := Ideal)) W)))))))) (e := W (Proc.devRef .tc main_arg1)) (h_v58 := f_v58) (h_v49 := f_v49) (h_v50 := f_v50)
  have g_v47 := (s2c_v47 (W := (after (ops2b (F := Ideal)) (after (ops2a (F := Ideal)) (after (ops1b (F := Ideal)) (after (ops1a (F := Ideal)) (after (ops0c (F := Ideal)) (after (ops0b (F := Ideal)) (after (ops0a (F := Ideal)) W))))))))).trans f_v47
  have g_v49 := (s2c_v49 (W := (after (ops2b (F := Ideal)) (after (ops2a (F := Ideal)) (after (ops1b (F := Ideal)) (after (ops1a (F := Ideal)) (after (ops0c (F := Ideal)) (after (ops0b (F := Ideal)) (after (ops0a (F := Ideal)) W))))))))).trans f_v49
  have g_v50 := (s2c_v50 (W := (after (ops2b (F := Ideal)) (after (ops2a (F := Ideal)) (after (ops1b (F := Ideal)) (after (ops1a (F := Ideal)) (after (ops0c (F := Ideal)) (after (ops0b (F := Ideal)) (after (ops0a (F := Ideal)) W))))))))).trans f_v50
  have g_arg4 := (s2c_arg4 (W := (after (ops2b (F := Ideal)) (after (ops2a (F := Ideal)) (after (ops1b (F := Ideal)) (after (ops1a (F := Ideal)) (after (ops0c (F := Ideal)) (after (ops0b (F := Ideal)) (after (ops0a (F := Ideal)) W))))))))).trans f_arg4
  have g_arg5 := (s2c_arg5 (W := (after (ops2b (F := Ideal)) (after (ops2a (F := Ideal)) (after (ops1b (F := Ideal)) (after (ops1a (F := Ideal)) (after (ops0c (F := Ideal)) (after (ops0b (F := Ideal)) (after (ops0a (F := Ideal)) W))))))))).trans f_arg5
  have f_v73 := g_v73
  have f_v47 := g_v47
  have f_v49 := g_v49
  have f_v50 := g_v50
  have f_arg4 := g_arg4
  have f_arg5 := g_arg5
  clear g_v73 g_v47 g_v49 g_v50 g_arg4 g_arg5
  have g_v90 := s3a_v90 (W := (after (ops2c (F := Ideal)) (after (ops2b (F := Ideal)) (after (ops2a (F := Ideal)) (after (ops1b (F := Ideal)) (after (ops1a (F := Ideal)) (after (ops0c (F := Ideal)) (after (ops0b (F := Ideal)) (after (ops0a (F := Ideal)) W))))))))) (x := W (Proc.devRef .tc main_arg0)) (e := W (Proc.devRef .tc main_arg1)) (w1 := W (Proc.devRef .tc main_arg2)) (b1 := W (Proc.devRef .tc main_arg3)) (w2 := W (Proc.devRef .tc main_arg4)) (b2 := W (Proc.devRef .tc main_arg5)) (h_v47 := f_v47) (h_arg4 := f_arg4) (h_arg5 := f_arg5) (h_v49 := f_v49) (h_v50 := f_v50) (h_v73 := f_v73)
  have f_v90 := g_v90
  clear g_v90
  have g_v91 := s3b_v91 (W := (after (ops3a (F := Ideal)) (after (ops2c (F := Ideal)) (after (ops2b (F := Ideal)) (after (ops2a (F := Ideal)) (after (ops1b (F := Ideal)) (after (ops1a (F := Ideal)) (after (ops0c (F := Ideal)) (after (ops0b (F := Ideal)) (after (ops0a (F := Ideal)) W)))))))))) (x := W (Proc.devRef .tc main_arg0)) (e := W (Proc.devRef .tc main_arg1)) (w1 := W (Proc.devRef .tc main_arg2)) (b1 := W (Proc.devRef .tc main_arg3)) (w2 := W (Proc.devRef .tc main_arg4)) (b2 := W (Proc.devRef .tc main_arg5)) (h_v90 := f_v90)
  have f_v91 := g_v91
  clear g_v91
  exact f_v91

set_option maxHeartbeats 53600000 in
/-- On every device, from any memory with zero counters: every weakly fair execution of the reference's @main
    terminates with the result buffer at the last stage of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v91)
        = val_main_v91 (F := Ideal) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v91).trans (result_eq _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RunValue

end
-- ==== Proof.LibHostRowMax.lean ====
/-
  The host's reduction of a matrix by maximum along its second axis, read at a row, over the extended reals.

  For an `[a, b]` matrix `x` and an initial value held in an array `init` of any non-empty shape, the host's
  one-operand reduce with a maximum body along axis 1 is, at row `i`, the fold of `max` from the initial value's
  first entry over `x (i, k)`, `k < b`. Arbitrary extents and any float format. (The library states this over the
  reduced shape's own index with the coordinate put back; here the index is spelt by its two coordinates.)
-/
import Idealize.ShloMosaic.PureOps.Ideal.Laws
import Idealize.ShloMosaic.PureOps.Reduce
import Idealize.ShloMosaic.Lib.ValueIdx

noncomputable section

namespace Idealize.ShloMosaic.HostRowMax

open Idealize.ShloMosaic Idealize.ShloMosaic.ValueIdx

variable {a b : ℕ} {φ : FTy}

/-- The host's row maxima: at row `i`, the fold of `max` over the row's entries from the initial value. -/
theorem hostRowMax_apply {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce (FloatOps.maximumf (F := Ideal) (φ := φ)) x init h' hu (ix1 i)
      = (Finset.univ : Finset (Fin b)).fold max (init (Shape.Idx.first hu)) (fun k => x (ix2 i k)) := by
  refine (Host.reduce_eq_fold_single (FloatOps.maximumf (F := Ideal) (φ := φ)) x init h' h hu (ix1 i)).trans ?_
  refine congrArg (Finset.fold max (init (Shape.Idx.first hu)) · (Finset.univ : Finset (Fin b))) (funext fun k => ?_)
  exact congrArg x (funext fun c => Fin.ext (by match c with | ⟨0, _⟩ => rfl | ⟨1, _⟩ => rfl))

end Idealize.ShloMosaic.HostRowMax

end
-- ==== Proof.LayersLsm.lean ====
/-
  The reference's last layer read at an index: the bias, then the row-wise log-softmax.

  The reference subtracts from every biased entry its row's maximum (a reduction from −∞, then a maximum with −∞,
  which changes nothing), exponentiates, sums each row from zero, takes the logarithm and subtracts it. Read at
  (p, q) through the reference's stages this is the specification's log-softmax of the biased features.
-/
import proofs.«109896_j62998580298292_1_alg».proof.Proof.Layers
import proofs.«109896_j62998580298292_1_alg».proof.Proof.LibHostRowMax

noncomputable section

open scoped BigOperators

namespace Cert.Layers

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- Reducing a 100000-by-16 array along its second axis leaves one entry per row. -/
theorem reduces_rows : S100000x16.Reduces [1] S100000 := by decide

/-- −∞ is the least extended real. -/
theorem max_negInf (y : EReal) : max (Ideal.ofBits .f32 0xFF800000#32) y = y := by
  simp [Ideal.ofBits, Ideal.ieee]

/-- The log-softmax layer at (p, q), spelt out. -/
theorem biasLogSoftmax_apply {M N : ℕ} (a : Spec.Mat M N) (b : Spec.Vc N) (p : Fin M) (q : Fin N) :
    Spec.biasLogSoftmax a b (ix2 p q) = Spec.shifted (Spec.addRow a b) (ix2 p q)
      - Ideal.log (∑ k : Fin N, Ideal.exp (Spec.shifted (Spec.addRow a b) (ix2 p k))) := rfl

/-- The biased features at an index. -/
theorem biased_at (x : Inp) (e : Edges) (w : Wt1) (b : Bias) (w2 : Wt2) (b2 : Bias) (p : Fin 100000) (k : Fin 16) :
    val_main_v90 (F := Ideal) x e w b w2 b2 (ix2 p k) = (Spec.addRow (M := 100000) (N := 16) (val_main_v87 (F := Ideal) x e w b w2) b2) (ix2 p k) := by
  rw [val_main_v90_apply, val_main_v89_apply, val_main_v88_apply]
  have eb : idx_main_v88 (idx_main_v89 (ix2 p k)) = ix1 k := funext fun a => Fin.ext (by match a with | ⟨0, _⟩ => rfl)
  rw [eb]
  rfl

/-- A row's maximum: the reduction from −∞ and the maximum with −∞ after it. -/
theorem rowMax_at (x : Inp) (e : Edges) (w : Wt1) (b : Bias) (w2 : Wt2) (b2 : Bias) (p : Fin 100000) :
    val_main_call3_v2 (F := Ideal) x e w b w2 b2 (ix1 p) = Spec.rowMax (M := 100000) (N := 16) (Spec.addRow (M := 100000) (N := 16) (val_main_v87 (F := Ideal) x e w b w2) b2) p := by
  rw [val_main_call3_v2_apply, val_main_call3_v1_apply, val_main_call3_cst_0_apply, Ideal.maximumf_def, Ideal.ofBits_def,
    max_negInf]
  unfold val_main_call3_v0
  rw [HostRowMax.hostRowMax_apply (a := 100000) (b := 16) (φ := .f32) (val_main_v90 (F := Ideal) x e w b w2 b2)
    (val_main_call3_cst (F := Ideal)) reducesTo_S100000x16_S100000_d1 reduces_rows h_S_ p]
  rw [val_main_call3_cst_apply, Ideal.ofBits_def]
  unfold Spec.rowMax
  exact congrArg (fun f => Finset.fold max (Ideal.ofBits .f32 0xFF800000#32) f (Finset.univ : Finset (Fin 16)))
    (funext fun k => biased_at x e w b w2 b2 p k)

/-- An entry less its row's maximum. -/
theorem shifted_at (x : Inp) (e : Edges) (w : Wt1) (b : Bias) (w2 : Wt2) (b2 : Bias) (p : Fin 100000) (k : Fin 16) :
    val_main_call3_v5 (F := Ideal) x e w b w2 b2 (ix2 p k) = Spec.shifted (M := 100000) (N := 16) (Spec.addRow (M := 100000) (N := 16) (val_main_v87 (F := Ideal) x e w b w2) b2) (ix2 p k) := by
  rw [val_main_call3_v5_apply, val_main_call3_v4_apply, val_main_call3_v3_apply, biased_at]
  have em : idx_main_call3_v3 (idx_main_call3_v4 (ix2 p k)) = ix1 p := funext fun a => Fin.ext (by match a with | ⟨0, _⟩ => rfl)
  rw [em, rowMax_at, Ideal.subf_def]
  rfl

/-- A row's sum of exponentials. -/
theorem sumExp_at (x : Inp) (e : Edges) (w : Wt1) (b : Bias) (w2 : Wt2) (b2 : Bias) (p : Fin 100000) :
    (∑ k : Fin 16, (val_main_call3_v6 (F := Ideal) x e w b w2 b2) (idx_main_call3_v7 (ix1 p) k))
      = ∑ k : Fin 16, Ideal.exp (Spec.shifted (M := 100000) (N := 16) (Spec.addRow (M := 100000) (N := 16) (val_main_v87 (F := Ideal) x e w b w2) b2) (ix2 p k)) :=
  Finset.sum_congr rfl fun k _ => by
    have ek : idx_main_call3_v7 (ix1 p) k = ix2 p k := funext fun a => Fin.ext (by match a with | ⟨0, _⟩ => rfl | ⟨1, _⟩ => rfl)
    rw [ek, val_main_call3_v6_apply, shifted_at, Ideal.hostUnary_exp_def]

/-- Its bias and log-softmax. -/
theorem lsm_eq (x : Inp) (e : Edges) (w : Wt1) (b : Bias) (w2 : Wt2) (b2 : Bias) :
    val_main_v91 (F := Ideal) x e w b w2 b2
      = Spec.biasLogSoftmax (M := 100000) (N := 16) (val_main_v87 (F := Ideal) x e w b w2) b2 := by
  funext i
  obtain ⟨p, q, rfl⟩ : ∃ (p : Fin 100000) (q : Fin 16), i = ix2 p q := ⟨i 0, i 1, eq_ix2 i⟩
  rw [val_main_v91_apply, val_main_call3_v10_apply, val_main_call3_v9_apply, val_main_call3_v8_apply, val_main_call3_v7_apply,
    shifted_at]
  have es : idx_main_call3_v8 (idx_main_call3_v10 (ix2 p q)) = ix1 p := funext fun a => Fin.ext (by match a with | ⟨0, _⟩ => rfl)
  rw [es, sumExp_at, val_main_call3_cst_1_apply, Ideal.ofBits_def, Ideal.ofBits_zero_f32, zero_add, Ideal.subf_def,
    Ideal.hostUnary_log_def, biasLogSoftmax_apply]

end Cert.Layers

end
-- ==== Proof.LayersNet.lean ====
/-
  The reference's result is the network of its arguments: its six layers, composed.
-/
import proofs.«109896_j62998580298292_1_alg».proof.Proof.LayersLsm

noncomputable section

namespace Cert.Layers

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The reference's result is the network. -/
theorem ref_eq (x : Inp) (e : Edges) (w1 : Wt1) (b1 : Bias) (w2 : Wt2) (b2 : Bias) :
    val_main_v91 (F := Ideal) x e w1 b1 w2 b2 = net x e w1 b1 w2 b2 := by
  rw [lsm_eq, agg2_eq, dense2_eq, relu_eq, agg1_eq, dense1_eq]
  rfl

end Cert.Layers

end
-- ==== Proof.lean ====
/-
  The certificate of a two-layer graph convolution computed by four kernel launches against its reference.

  The kernel program multiplies the node inputs by the first weights 2000 rows at a time, aggregates the product over
  the graph's edges on the host, adds the first bias and rectifies in a second launch, multiplies by the second
  weights in a third, aggregates again on the host, and adds the second bias and takes a row-wise log-softmax in a
  fourth. The reference does all of it on the host. Over the extended reals the two agree entry by entry: a launch
  that multiplies blocks of rows into a zero accumulator leaves the whole product, because each entry is a sum over
  one row and one column; the two row-wise launches leave the whole layer, because each entry depends on its own row
  and the bias only; the reference's maximum with −∞ changes nothing; and the aggregation is the same host operations
  on both sides. No law used needs the inputs to be finite, so the precondition is never opened.

  The frames of the two kernel programs are the generated frame certificates; the reference's frame is its run with
  the result dropped. The idealization rewrote no operation, so there is nothing to preserve.
-/
import proofs.«109896_j62998580298292_1_alg».proof.Defs
import proofs.«109896_j62998580298292_1_alg».proof.Proof.Gen.Kernel
import proofs.«109896_j62998580298292_1_alg».proof.Proof.Gen.Kernel.Frame
import proofs.«109896_j62998580298292_1_alg».proof.Proof.Gen.KernelIdeal
import proofs.«109896_j62998580298292_1_alg».proof.Proof.Gen.KernelIdeal.Frame
import proofs.«109896_j62998580298292_1_alg».proof.Proof.Gen.ReferenceIdeal
import proofs.«109896_j62998580298292_1_alg».proof.Proof.Gen.Pre_finite_inputs
import proofs.«109896_j62998580298292_1_alg».proof.Proof.KernelRun
import proofs.«109896_j62998580298292_1_alg».proof.Proof.KernelValue
import proofs.«109896_j62998580298292_1_alg».proof.Proof.RefValue
import proofs.«109896_j62998580298292_1_alg».proof.Proof.LayersNet

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunValue.run m ρ)

theorem preserves : Cert.preserves_Kernel_KernelIdeal := trivial

/-- Both programs end with the result array at the network of the argument arrays: the kernel program by the walk
    through its segments, the reference by its stages. -/
theorem algebraic : Cert.algebraic_KernelIdeal_ReferenceIdeal := by
  intro m ρ m' ρ' _ hagree
  refine ⟨fun c => Cert.Layers.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.result m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.RunValue.run m' ρ')
    rw [(hagree c).1, (hagree c).2.1, (hagree c).2.2.1, (hagree c).2.2.2.1, (hagree c).2.2.2.2.1, (hagree c).2.2.2.2.2]
    exact Cert.Layers.ref_eq _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
